-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 42
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel's run with its result named.

  Every weakly fair execution of the kernel's program terminates, nothing faulting, with the argument arrays as launched
  and the result array holding what the second region's write-backs leave: the contents at the last boundary of the
  program's segments (host operations, the statistics region, host operations, the normalising region), read at the
  result buffer.
-/
import proofs.«138549_j15195594293520_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four segments from the launch memory: the last thread state holds every unscoped buffer at the last
    boundary's contents, so the result buffer is read there and each argument walks back to the launch memory. -/
theorem run_named : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer at the last boundary is what the normalising region's write-backs leave in its output array. -/
theorem result_eq (c : Dev nD) : W4 m ρ c (Proc.devRef .tc main_v26) = (dat1 (V3 m ρ) c).arrAt 7 cfg1.N :=
  W4_arr m ρ c 7

end Cert.KernelIdeal.Run

end
-- ==== Proof.StatsCases.lean ====
/-
  The statistics kernel, case by case: what the body leaves in its two accumulators.

  At the first grid point the body clears both accumulators and then adds the block's column sums to them; at every
  later point it adds the block's column sums to what the point before left.  In both cases the accumulator for the
  sums ends at `k0_pay4` (the accumulator's contents plus the column sums of the block's hidden rows) and the one for the
  squares at `k0_pay5`; at the first point the contents they are added to are the cleared blocks `k0_pay1`, `k0_pay2`.
-/
import proofs.«138549_j15195594293520_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stats

open Cert.KernelIdeal Cert.KernelIdeal.Gen

variable {F : FTy → Type} [FloatOps F]

theorem hz : (![0, 0] : Fin 2 → Nat) = fun _ => 0 := funext fun a => by fin_cases a <;> rfl

/-- After a later point the sums' accumulator holds its earlier contents plus the block's column sums. -/
theorem later_sums (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (hc : ¬cond0_0 i)
    (x0 : Vec F S5000x128 .f32) (x1 : Vec F S128x128 .f32) (x2 : Vec F S1x128 .f32) (xo3 xo4 : Vec F S1x128 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- After a later point the squares' accumulator holds its earlier contents plus the block's column sums of squares. -/
theorem later_squares (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (hc : ¬cond0_0 i)
    (x0 : Vec F S5000x128 .f32) (x1 : Vec F S128x128 .f32) (x2 : Vec F S1x128 .f32) (xo3 xo4 : Vec F S1x128 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread, h5.read_unread,
    View.ld_unit_zero (S := S5000x128) hz, View.ld_unit_zero (S := S128x128) hz, View.ld_unit_zero (S := S1x128) hz]

/-- After the first point the sums' accumulator holds the cleared block plus the block's column sums: the body reads back
    the zeros it has just stored. -/
theorem first_sums (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (hc : cond0_0 i)
    (x0 : Vec F S5000x128 .f32) (x1 : Vec F S128x128 .f32) (x2 : Vec F S1x128 .f32) :
    out0_A_3 c i a1 h1 a2 h2 a3 h3 a4 h4 a5 h5 hc x0 x1 x2 = k0_pay4 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

/-- After the first point the squares' accumulator holds the cleared block plus the block's column sums of squares. -/
theorem first_squares (c : Dev nD) (i : grid0.Coords) (a1 : Memref sig .tc .vmem S5000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (hc : cond0_0 i)
    (x0 : Vec F S5000x128 .f32) (x1 : Vec F S128x128 .f32) (x2 : Vec F S1x128 .f32) :
    out0_A_4 c i a1 h1 a2 h2 a3 h3 a4 h4 a5 h5 hc x0 x1 x2 = k0_pay5 x0 x1 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S128x128) hz, View.ld_unit_zero (S := S1x128) hz]

end Cert.KernelIdeal.Stats

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«138549_j15195594293520_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«138549_j15195594293520_1_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«138549_j15195594293520_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneCols.lean ====
/-
  Two readings of an [a, b] vector over the extended reals, column by column.

  A lane reduction over the FIRST axis gathers, at column `j`, the `a` entries (0, j), …, (a − 1, j).  With an addition
  body from the neutral accumulator it holds their plain sum; with a maximum body from −∞ it holds their supremum (a
  fold of `max` from the bottom element over a finite family is the family's supremum, in any order).  These are the
  column forms beside the row forms (reductions over the last axis).
-/
import Idealize.ShloMosaic.Lib.ValueIdx
import Idealize.ShloMosaic.Lib.Pipeline.Value
import Idealize.ShloMosaic.PureOps.Ideal.Laws
import proofs.«138549_j15195594293520_1_alg».proof.Proof.LibHostMax

noncomputable section

open scoped BigOperators

namespace LaneCols

open Idealize.ShloMosaic Idealize.ShloMosaic.ValueIdx

/-- Column `j` of an [a, b] array with coordinate `k` put back on the reduced (first) axis is (k, j). -/
theorem lift_cols {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- From the neutral accumulator, a lane sum over the first axis of an [a, b] vector, at column `j`, is the sum of the column. -/
theorem multiReduction_add_cols {a b : ℕ} (P : FVec Ideal ⟨2, ![a, b]⟩ .f32) (acc : BitVec FTy.f32.bits)
    (h : (⟨2, ![a, b]⟩ : Shape).Reduces [0] (⟨1, ![b]⟩ : Shape)) (hφ : FKind.Formats .f32)
    (hacc : acc = FKind.add.neutral .f32 hφ) (j : Fin b) :
    multiReduction (F := Ideal) .add [0] (⟨1, ![b]⟩ : Shape) P acc h hφ hacc (ix1 j) = ∑ k : Fin a, P (ix2 k j) := by
  refine (Ideal.multiReduction_add_single (φ := .f32) P acc h hφ hacc (ix1 j)).trans ?_
  have hf : (P ∘ h.lift (ix1 j)) = fun k : Fin a => P (ix2 k j) :=
    funext fun k => congrArg P (lift_cols h j k)
  exact congrArg (fun f => ∑ k : Fin a, f k) hf

/-- From −∞, a lane maximum over the first axis of an [a, b] vector, at column `j`, is the supremum of the column. -/
theorem multiReduction_max_cols {a b : ℕ} (P : FVec Ideal ⟨2, ![a, b]⟩ .f32)
    (h : (⟨2, ![a, b]⟩ : Shape).Reduces [0] (⟨1, ![b]⟩ : Shape)) (hφ : FKind.Formats .f32)
    (hacc : (0xFF800000#32 : BitVec FTy.f32.bits) = FKind.maximumf.neutral .f32 hφ) (j : Fin b) :
    multiReduction (F := Ideal) .maximumf [0] (⟨1, ![b]⟩ : Shape) P 0xFF800000#32 h hφ hacc (ix1 j)
      = (Finset.univ : Finset (Fin a)).sup fun k => P (ix2 k j) := by
  refine (Ideal.multiReduction_maximumf_single (φ := .f32) P 0xFF800000#32 h hφ hacc (ix1 j)).trans ?_
  have hf : (P ∘ h.lift (ix1 j)) = fun k : Fin a => P (ix2 k j) := funext fun k => congrArg P (lift_cols h j k)
  have hb : FloatOps.ofBits (F := Ideal) .f32 0xFF800000#32 = (⊥ : EReal) := HostMax.ofBits_neg_inf
  rw [hb]
  exact congrArg (fun f => Finset.fold max (⊥ : EReal) f (Finset.univ : Finset (Fin a))) hf

end LaneCols

end
-- ==== Proof.StatsPayload.lean ====
/-
  The statistics kernel's arithmetic, entry by entry, on the extended reals.

  From a block `x` of 5000 rows, the weights `w` and the bias row `b` the body forms the hidden rows `x·w + b` (one dense
  layer).  The sums' accumulator then gains, in column `q`, the sum of the 5000 hidden entries of that column, and the
  squares' accumulator the sum of their squares.
-/
import proofs.«138549_j15195594293520_1_alg».proof.Proof.Gen.KernelIdeal.Skeleton
import proofs.«138549_j15195594293520_1_alg».proof.Proof.LibDenseLayer
import proofs.«138549_j15195594293520_1_alg».proof.Proof.LibLaneCols
import Idealize.ShloMosaic.Lib.ValueLayout

noncomputable section

open scoped BigOperators
open Idealize.ShloMosaic Idealize.ShloMosaic.ValueIdx

namespace Cert.KernelIdeal.StatsPayload

open Cert.KernelIdeal Cert.KernelIdeal.Gen Cert.Lib.DenseLayer

/-- The hidden rows of a block are the dense layer of the block. -/
theorem hidden_eq (x : Vec Ideal S5000x128 .f32) (w : Vec Ideal S128x128 .f32) (b : Vec Ideal S1x128 .f32) :
    k0_pay3 (F := Ideal) x w b = affine x w b := by
  unfold k0_pay3
  exact block_affine_eq _ rfl _ _ _ _ x w b

/-- The cleared accumulators hold zero. -/
theorem cleared_sums (q : Fin 128) : k0_pay1 (F := Ideal) (ix2 (0 : Fin 1) q) = 0 := Ideal.ofBits_zero_f32
theorem cleared_squares (q : Fin 128) : k0_pay2 (F := Ideal) (ix2 (0 : Fin 1) q) = 0 := Ideal.ofBits_zero_f32

/-- The sums' accumulator gains the column sums of the block's hidden rows. -/
theorem sums_apply (x : Vec Ideal S5000x128 .f32) (w : Vec Ideal S128x128 .f32) (b acc : Vec Ideal S1x128 .f32) (q : Fin 128) :
    k0_pay4 (F := Ideal) x w b acc (ix2 (0 : Fin 1) q)
      = acc (ix2 (0 : Fin 1) q) + ∑ r : Fin 5000, affine x w b (ix2 r q) := by
  unfold k0_pay4
  rw [hidden_eq, addf_apply, shapeCast_self, shapeCast_a_1a_apply]
  refine congrArg (acc (ix2 (0 : Fin 1) q) + ·) ?_
  exact LaneCols.multiReduction_add_cols (affine x w b) _ _ _ _ q

/-- The squares' accumulator gains the column sums of the squares of the block's hidden rows. -/
theorem squares_apply (x : Vec Ideal S5000x128 .f32) (w : Vec Ideal S128x128 .f32) (b acc : Vec Ideal S1x128 .f32) (q : Fin 128) :
    k0_pay5 (F := Ideal) x w b acc (ix2 (0 : Fin 1) q)
      = acc (ix2 (0 : Fin 1) q) + ∑ r : Fin 5000, affine x w b (ix2 r q) * affine x w b (ix2 r q) := by
  unfold k0_pay5
  rw [hidden_eq, addf_apply, shapeCast_self, shapeCast_a_1a_apply]
  refine congrArg (acc (ix2 (0 : Fin 1) q) + ·) ?_
  exact LaneCols.multiReduction_add_cols (mulf (affine x w b) (affine x w b)) _ _ _ _ q

end Cert.KernelIdeal.StatsPayload

end
-- ==== Proof.Blocks.lean ====
/-
  The windows' blocks, read off the arrays.

  Both kernels run over a grid of 20 points.  At point `t` the first window holds rows `5000·t … 5000·t + 4999` of the
  aggregated array; every other input window holds its whole (small) array at every point.
-/
import proofs.«138549_j15195594293520_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (V : (c : Dev nD) → (b : Ref sig .tc) → Buf (Elt F) ((c : Thread nD τ).loc b))

/-- The block index of every window of the statistics kernel at every grid point. -/
theorem idx0 : ∀ t : Fin cfg0.N, win0_0.index t 0 = t.val ∧ win0_0.index t 1 = 0
      ∧ win0_1.index t 0 = 0 ∧ win0_1.index t 1 = 0 ∧ win0_2.index t 0 = 0 ∧ win0_2.index t 1 = 0
      ∧ win0_3.index t 0 = 0 ∧ win0_3.index t 1 = 0 ∧ win0_4.index t 0 = 0 ∧ win0_4.index t 1 = 0 :=
  (by decide +kernel : ∀ t : Fin grid0.N, _)

/-- The block index of every window of the normalising kernel at every grid point. -/
theorem idx1 : ∀ t : Fin cfg1.N, win1_0.index t 0 = t.val ∧ win1_0.index t 1 = 0
      ∧ win1_1.index t 0 = 0 ∧ win1_1.index t 1 = 0 ∧ win1_2.index t 0 = 0 ∧ win1_2.index t 1 = 0
      ∧ win1_3.index t 0 = 0 ∧ win1_3.index t 1 = 0 ∧ win1_4.index t 0 = 0 ∧ win1_4.index t 1 = 0
      ∧ win1_5.index t 0 = 0 ∧ win1_5.index t 1 = 0 ∧ win1_6.index t 0 = 0 ∧ win1_6.index t 1 = 0
      ∧ win1_7.index t 0 = t.val ∧ win1_7.index t 1 = 0 :=
  (by decide +kernel : ∀ t : Fin grid1.N, _)

/-- Row `r` of the statistics kernel's block at point `t` is row `5000·t + r` of the aggregated array. -/
theorem rows0 (c : Dev nD) (t : Fin cfg0.N) (r : Fin 5000) (k : Fin 128) (ht : 5000 * t.val + r.val < 100000) :
    (iblk0 V c 0 t : Vec F S5000x128 .f32) (ix2 r k) = V c main_v12 (ix2 (⟨5000 * t.val + r.val, ht⟩ : Fin 100000) k) := by
  unfold iblk0
  rw [View.read_apply]
  show V c main_v12 _ = V c main_v12 _
  refine congrArg (V c main_v12) ?_
  funext a
  apply Fin.ext
  match a with
  | ⟨0, _⟩ => show win0_0.index t 0 * 5000 + 1 * r.val = 5000 * t.val + r.val; rw [(idx0 t).1]; omega
  | ⟨1, _⟩ => show win0_0.index t 1 * 128 + 1 * k.val = k.val; rw [(idx0 t).2.1]; omega

/-- The statistics kernel's weights window holds the whole weight matrix at every point. -/
theorem weights0 (c : Dev nD) (t : Fin cfg0.N) : (iblk0 V c 1 t : Vec F S128x128 .f32) = V c main_arg4 := by
  funext j
  unfold iblk0
  rw [View.read_apply]
  show V c main_arg4 _ = V c main_arg4 _
  refine congrArg (V c main_arg4) ?_
  funext a
  apply Fin.ext
  match a with
  | ⟨0, _⟩ => show win0_1.index t 0 * 128 + 1 * (j 0).val = (j 0).val; rw [(idx0 t).2.2.1]; omega
  | ⟨1, _⟩ => show win0_1.index t 1 * 128 + 1 * (j 1).val = (j 1).val; rw [(idx0 t).2.2.2.1]; omega

/-- Its bias window holds the whole bias row at every point. -/
theorem bias0 (c : Dev nD) (t : Fin cfg0.N) : (iblk0 V c 2 t : Vec F S1x128 .f32) = V c main_v13 := by
  funext j
  unfold iblk0
  rw [View.read_apply]
  show V c main_v13 _ = V c main_v13 _
  refine congrArg (V c main_v13) ?_
  funext a
  apply Fin.ext
  match a with
  | ⟨0, _⟩ => show win0_2.index t 0 * 1 + 1 * (j 0).val = (j 0).val; rw [(idx0 t).2.2.2.2.1]; omega
  | ⟨1, _⟩ => show win0_2.index t 1 * 128 + 1 * (j 1).val = (j 1).val; rw [(idx0 t).2.2.2.2.2.1]; omega

/-- Row `r` of the normalising kernel's block at point `t` is row `5000·t + r` of the aggregated array. -/
theorem rows1 (c : Dev nD) (t : Fin cfg1.N) (r : Fin 5000) (k : Fin 128) (ht : 5000 * t.val + r.val < 100000) :
    (iblk1 V c 0 t : Vec F S5000x128 .f32) (ix2 r k) = V c main_v12 (ix2 (⟨5000 * t.val + r.val, ht⟩ : Fin 100000) k) := by
  unfold iblk1
  rw [View.read_apply]
  show V c main_v12 _ = V c main_v12 _
  refine congrArg (V c main_v12) ?_
  funext a
  apply Fin.ext
  match a with
  | ⟨0, _⟩ => show win1_0.index t 0 * 5000 + 1 * r.val = 5000 * t.val + r.val; rw [(idx1 t).1]; omega
  | ⟨1, _⟩ => show win1_0.index t 1 * 128 + 1 * k.val = k.val; rw [(idx1 t).2.1]; omega

/-- The normalising kernel's weights window holds the whole weight matrix at every point. -/
theorem weights1 (c : Dev nD) (t : Fin cfg1.N) : (iblk1 V c 1 t : Vec F S128x128 .f32) = V c main_arg4 := by
  funext j
  unfold iblk1
  rw [View.read_apply]
  show V c main_arg4 _ = V c main_arg4 _
  refine congrArg (V c main_arg4) ?_
  funext a
  apply Fin.ext
  match a with
  | ⟨0, _⟩ => show win1_1.index t 0 * 128 + 1 * (j 0).val = (j 0).val; rw [(idx1 t).2.2.1]; omega
  | ⟨1, _⟩ => show win1_1.index t 1 * 128 + 1 * (j 1).val = (j 1).val; rw [(idx1 t).2.2.2.1]; omega

/-- Its bias window holds the whole bias row. -/
theorem bias1 (c : Dev nD) (t : Fin cfg1.N) : (iblk1 V c 2 t : Vec F S1x128 .f32) = V c main_v13 := by
  funext j
  unfold iblk1
  rw [View.read_apply]
  show V c main_v13 _ = V c main_v13 _
  refine congrArg (V c main_v13) ?_
  funext a
  apply Fin.ext
  match a with
  | ⟨0, _⟩ => show win1_2.index t 0 * 1 + 1 * (j 0).val = (j 0).val; rw [(idx1 t).2.2.2.2.1]; omega
  | ⟨1, _⟩ => show win1_2.index t 1 * 128 + 1 * (j 1).val = (j 1).val; rw [(idx1 t).2.2.2.2.2.1]; omega

/-- Its mean window holds the whole row of column means. -/
theorem mean1 (c : Dev nD) (t : Fin cfg1.N) : (iblk1 V c 3 t : Vec F S1x128 .f32) = V c main_v18 := by
  funext j
  unfold iblk1
  rw [View.read_apply]
  show V c main_v18 _ = V c main_v18 _
  refine congrArg (V c main_v18) ?_
  funext a
  apply Fin.ext
  match a with
  | ⟨0, _⟩ => show win1_3.index t 0 * 1 + 1 * (j 0).val = (j 0).val; rw [(idx1 t).2.2.2.2.2.2.1]; omega
  | ⟨1, _⟩ => show win1_3.index t 1 * 128 + 1 * (j 1).val = (j 1).val; rw [(idx1 t).2.2.2.2.2.2.2.1]; omega

/-- Its fourth row window holds the whole row of reciprocal standard deviations. -/
theorem rstd1 (c : Dev nD) (t : Fin cfg1.N) : (iblk1 V c 4 t : Vec F S1x128 .f32) = V c main_v25 := by
  funext j
  unfold iblk1
  rw [View.read_apply]
  show V c main_v25 _ = V c main_v25 _
  refine congrArg (V c main_v25) ?_
  funext a
  apply Fin.ext
  match a with
  | ⟨0, _⟩ => show win1_4.index t 0 * 1 + 1 * (j 0).val = (j 0).val; rw [(idx1 t).2.2.2.2.2.2.2.2.1]; omega
  | ⟨1, _⟩ => show win1_4.index t 1 * 128 + 1 * (j 1).val = (j 1).val; rw [(idx1 t).2.2.2.2.2.2.2.2.2.1]; omega

/-- Its scale window holds the whole scale row. -/
theorem gamma1 (c : Dev nD) (t : Fin cfg1.N) : (iblk1 V c 5 t : Vec F S1x128 .f32) = V c main_v14 := by
  funext j
  unfold iblk1
  rw [View.read_apply]
  show V c main_v14 _ = V c main_v14 _
  refine congrArg (V c main_v14) ?_
  funext a
  apply Fin.ext
  match a with
  | ⟨0, _⟩ => show win1_5.index t 0 * 1 + 1 * (j 0).val = (j 0).val; rw [(idx1 t).2.2.2.2.2.2.2.2.2.2.1]; omega
  | ⟨1, _⟩ => show win1_5.index t 1 * 128 + 1 * (j 1).val = (j 1).val; rw [(idx1 t).2.2.2.2.2.2.2.2.2.2.2.1]; omega

/-- Its shift window holds the whole shift row. -/
theorem beta1 (c : Dev nD) (t : Fin cfg1.N) : (iblk1 V c 6 t : Vec F S1x128 .f32) = V c main_v15 := by
  funext j
  unfold iblk1
  rw [View.read_apply]
  show V c main_v15 _ = V c main_v15 _
  refine congrArg (V c main_v15) ?_
  funext a
  apply Fin.ext
  match a with
  | ⟨0, _⟩ => show win1_6.index t 0 * 1 + 1 * (j 0).val = (j 0).val; rw [(idx1 t).2.2.2.2.2.2.2.2.2.2.2.2.1]; omega
  | ⟨1, _⟩ => show win1_6.index t 1 * 128 + 1 * (j 1).val = (j 1).val; rw [(idx1 t).2.2.2.2.2.2.2.2.2.2.2.2.2.1]; omega

end Cert.KernelIdeal.Blocks

end
-- ==== Proof.LibGridAcc.lean ====
/-
  Two facts about finite sums in an additive commutative monoid (used over the extended reals; nothing here asks the
  summands to be finite).

  A sum over `B · J` consecutive positions is the sum, over the `B` blocks, of each block's `J` entries: position
  `J · j + k` is entry `k` of block `j`. Stated for any `B` and `J`, and once more for 8192 = 8 · 1024 positions over
  `Fin 8192` itself, so that no change of index type is left to the user.

  An accumulator that starts from zero plus the first summand and then adds one summand per step holds, after step
  `n`, the sum of the summands `0, …, n`. Stated for sequences indexed by the natural numbers (with the step law for
  every `j`, or only below a bound), for sequences indexed by `Fin (n + 1)`, and in the variant where every summand
  arrives as zero plus itself.
-/
import Mathlib.Algebra.BigOperators.Fin
import Mathlib.Algebra.BigOperators.Intervals
import Mathlib.Logic.Equiv.Fin.Basic
import Idealize.ShloMosaic.PureOps.Ideal

open scoped BigOperators

namespace Cert.Lib.GridAcc

variable {M : Type*} [AddCommMonoid M]

/-! ## A sum cut into equal blocks -/

/-- Entry `k` of block `j` lies inside the `B · J` positions. -/
theorem blk_lt {B J : ℕ} (j : Fin B) (k : Fin J) : J * j.val + k.val < B * J := by
  have hj := j.isLt
  have hk := k.isLt
  calc J * j.val + k.val < J * j.val + J := by omega
    _ = J * (j.val + 1) := by ring
    _ ≤ J * B := Nat.mul_le_mul_left _ hj
    _ = B * J := Nat.mul_comm _ _

/-- The same position written block index first. -/
theorem blk_lt' {B J : ℕ} (j : Fin B) (k : Fin J) : j.val * J + k.val < B * J := by
  rw [Nat.mul_comm j.val J]; exact blk_lt j k

/-- A sum over `B · J` positions is the sum over the blocks of each block's entries. -/
theorem sum_blocks {B J : ℕ} (g : Fin (B * J) → M) :
    ∑ x : Fin (B * J), g x = ∑ j : Fin B, ∑ k : Fin J, g ⟨J * j.val + k.val, blk_lt j k⟩ := by
  rw [← (finProdFinEquiv (m := B) (n := J)).sum_comp g, Fintype.sum_prod_type]
  refine Finset.sum_congr rfl fun j _ => Finset.sum_congr rfl fun k _ => congrArg g (Fin.ext ?_)
  show k.val + J * j.val = J * j.val + k.val
  exact Nat.add_comm _ _

/-- The same with the position written block index first. -/
theorem sum_blocks' {B J : ℕ} (g : Fin (B * J) → M) :
    ∑ x : Fin (B * J), g x = ∑ j : Fin B, ∑ k : Fin J, g ⟨j.val * J + k.val, blk_lt' j k⟩ := by
  rw [sum_blocks]
  exact Finset.sum_congr rfl fun j _ => Finset.sum_congr rfl fun k _ => congrArg g (Fin.ext (by
    show J * j.val + k.val = j.val * J + k.val
    rw [Nat.mul_comm]))

/-- 8192 positions as 8 blocks of 1024. -/
theorem sum_8192 (g : Fin 8192 → M) :
    ∑ n : Fin 8192, g n = ∑ j : Fin 8, ∑ k : Fin 1024, g ⟨1024 * j.val + k.val, by omega⟩ :=
  sum_blocks (B := 8) (J := 1024) g

/-- The same with the position written block index first. -/
theorem sum_8192' (g : Fin 8192 → M) :
    ∑ n : Fin 8192, g n = ∑ j : Fin 8, ∑ k : Fin 1024, g ⟨j.val * 1024 + k.val, by omega⟩ :=
  sum_blocks' (B := 8) (J := 1024) g

/-! ## An accumulator run step by step -/

/-- With the step law below a bound `N`: after step `n ≤ N` the accumulator holds the sum of the summands `0, …, n`. -/
theorem acc_eq_sum_of_lt (a b : ℕ → M) (N : ℕ) (h0 : a 0 = 0 + b 0) (hs : ∀ j, j < N → a (j + 1) = a j + b (j + 1)) :
    ∀ n, n ≤ N → a n = ∑ j ∈ Finset.range (n + 1), b j := by
  intro n
  induction n with
  | zero => intro _; rw [h0, zero_add, Finset.sum_range_one]
  | succ n ih =>
    intro hn
    rw [hs n (by omega), ih (by omega), Finset.sum_range_succ _ (n + 1)]

/-- With the step law at every `j`: after step `n` the accumulator holds the sum of the summands `0, …, n`. -/
theorem acc_eq_sum (a b : ℕ → M) (h0 : a 0 = 0 + b 0) (hs : ∀ j, a (j + 1) = a j + b (j + 1)) (n : ℕ) :
    a n = ∑ j ∈ Finset.range (n + 1), b j :=
  acc_eq_sum_of_lt a b n h0 (fun j _ => hs j) n (le_refl n)

/-- After the eighth step (step 7), as a sum over `Fin 8`; the step law is needed only below 7. -/
theorem acc7_eq_sum (a b : ℕ → M) (h0 : a 0 = 0 + b 0) (hs : ∀ j, j < 7 → a (j + 1) = a j + b (j + 1)) :
    a 7 = ∑ j : Fin 8, b j.val := by
  rw [acc_eq_sum_of_lt a b 7 h0 hs 7 (le_refl 7), Finset.sum_range]

/-- The variant where every summand arrives as zero plus itself (a product added into a zero accumulator before it is
    added to the running one). -/
theorem acc_eq_sum_zero_add_of_lt (a b : ℕ → M) (N : ℕ) (h0 : a 0 = 0 + (0 + b 0))
    (hs : ∀ j, j < N → a (j + 1) = a j + (0 + b (j + 1))) : ∀ n, n ≤ N → a n = ∑ j ∈ Finset.range (n + 1), b j :=
  acc_eq_sum_of_lt a b N (by rw [h0, zero_add]) (fun j hj => by rw [hs j hj, zero_add])

theorem acc_eq_sum_zero_add (a b : ℕ → M) (h0 : a 0 = 0 + (0 + b 0)) (hs : ∀ j, a (j + 1) = a j + (0 + b (j + 1))) (n : ℕ) :
    a n = ∑ j ∈ Finset.range (n + 1), b j :=
  acc_eq_sum_zero_add_of_lt a b n h0 (fun j _ => hs j) n (le_refl n)

theorem acc7_eq_sum_zero_add (a b : ℕ → M) (h0 : a 0 = 0 + (0 + b 0))
    (hs : ∀ j, j < 7 → a (j + 1) = a j + (0 + b (j + 1))) : a 7 = ∑ j : Fin 8, b j.val := by
  rw [acc_eq_sum_zero_add_of_lt a b 7 h0 hs 7 (le_refl 7), Finset.sum_range]

/-- The accumulator and the summands indexed by `Fin (n + 1)`: the last value is the sum of all the summands. -/
theorem acc_fin_eq_sum {n : ℕ} (a b : Fin (n + 1) → M) (h0 : a 0 = 0 + b 0)
    (hs : ∀ j : Fin n, a j.succ = a j.castSucc + b j.succ) : a (Fin.last n) = ∑ j, b j := by
  have key : ∀ (k : ℕ) (hk : k < n + 1),
      a ⟨k, hk⟩ = ∑ j ∈ Finset.range (k + 1), (if h : j < n + 1 then b ⟨j, h⟩ else 0) := by
    intro k
    induction k with
    | zero =>
      intro hk
      rw [Finset.sum_range_one, dif_pos hk]
      exact h0.trans (zero_add _)
    | succ k ih =>
      intro hk
      have hk' : k < n := by omega
      rw [Finset.sum_range_succ, ← ih (by omega), dif_pos hk]
      exact hs ⟨k, hk'⟩
  rw [show Fin.last n = ⟨n, Nat.lt_succ_self n⟩ from rfl, key n _, Finset.sum_range]
  exact Finset.sum_congr rfl fun j _ => by rw [dif_pos j.isLt]

/-- The same in the variant where every summand arrives as zero plus itself. -/
theorem acc_fin_eq_sum_zero_add {n : ℕ} (a b : Fin (n + 1) → M) (h0 : a 0 = 0 + (0 + b 0))
    (hs : ∀ j : Fin n, a j.succ = a j.castSucc + (0 + b j.succ)) : a (Fin.last n) = ∑ j, b j :=
  acc_fin_eq_sum a b (by rw [h0, zero_add]) (fun j => by rw [hs j, zero_add])

/-- Eight steps over blocks of 1024: an accumulator that adds, at step `j`, the sum of block `j` of a family over
    8192 positions ends at the sum over all 8192 positions. -/
theorem acc8_blocks_eq_sum_8192 (a : Fin 8 → M) (g : Fin 8192 → M)
    (h0 : a 0 = 0 + ∑ k : Fin 1024, g ⟨1024 * (0 : Fin 8).val + k.val, by omega⟩)
    (hs : ∀ j : Fin 7, a j.succ = a j.castSucc + ∑ k : Fin 1024, g ⟨1024 * j.succ.val + k.val, by omega⟩) :
    a 7 = ∑ n : Fin 8192, g n := by
  rw [sum_8192 g]
  exact acc_fin_eq_sum (n := 7) a (fun j => ∑ k : Fin 1024, g ⟨1024 * j.val + k.val, by omega⟩) h0 hs

end Cert.Lib.GridAcc
-- ==== Proof.Spec.lean ====
/-
  Batch normalisation over the rows of a 100000 × 128 array, entry by entry, on the extended reals.

  For a hidden array `H` the column `q` has the sum `colSum H q`, the sum of squares `colSq H q` and the mean
  `mean H q = colSum H q / 100000`.  The variance of the column is written in two ways: from the moments,
  `colSq / 100000 − mean²` (`varMoments`), and as the mean of the squared deviations, `(∑ (H − mean)²) / 100000`
  (`varCentred`).  The normalised entry is `((H − mean) · rsqrt (var + ε)) · γ + β` (`normAt`, `norm`), for either variance.
  The two variances are the same number when every entry of the column is a real (`VarLaw`), and then so are the two
  normalised arrays.
-/
import Idealize.ShloMosaic.PureOps.Ideal
import Idealize.ShloMosaic.Lib.ValueIdx

noncomputable section

open scoped BigOperators

namespace Cert.BatchNorm

open Idealize.ShloMosaic Idealize.ShloMosaic.ValueIdx

/-- The number of rows as the float both programs divide by: the word of 1.0e5. -/
abbrev cRows : EReal := Ideal.ofBits .f32 0x47C35000#32
/-- The stabiliser added to the variance: the word of 1.0e-5 rounded to single precision. -/
abbrev cEps : EReal := Ideal.ofBits .f32 0x3727C5AC#32

abbrev Mat : Type := FVec Ideal ⟨2, ![100000, 128]⟩ .f32
abbrev Vec128 : Type := FVec Ideal ⟨1, ![128]⟩ .f32

/-- The sum of column `q`. -/
def colSum (H : Mat) (q : Fin 128) : EReal := ∑ r : Fin 100000, H (ix2 r q)
/-- The sum of the squares of column `q`. -/
def colSq (H : Mat) (q : Fin 128) : EReal := ∑ r : Fin 100000, H (ix2 r q) * H (ix2 r q)
/-- The mean of column `q`. -/
def mean (H : Mat) (q : Fin 128) : EReal := Ideal.div (colSum H q) cRows
/-- The variance of column `q` from its moments: the mean of the squares minus the square of the mean. -/
def varMoments (H : Mat) (q : Fin 128) : EReal := Ideal.div (colSq H q) cRows - mean H q * mean H q
/-- The variance of column `q` as the mean of the squared deviations from the mean. -/
def varCentred (H : Mat) (q : Fin 128) : EReal :=
  Ideal.div (∑ r : Fin 100000, (H (ix2 r q) - mean H q) * (H (ix2 r q) - mean H q)) cRows

/-- The normalised entry `(r, q)`, for a given variance of each column. -/
def normAt (var : Fin 128 → EReal) (H : Mat) (g β : Vec128) (r : Fin 100000) (q : Fin 128) : EReal :=
  ((H (ix2 r q) - mean H q) * Ideal.rsqrt (var q + cEps)) * g (ix1 q) + β (ix1 q)

/-- The normalised array. -/
def norm (var : Fin 128 → EReal) (H : Mat) (g β : Vec128) : Mat :=
  fun i => normAt var H g β (i 0) (i 1)

theorem norm_apply (var : Fin 128 → EReal) (H : Mat) (g β : Vec128) (r : Fin 100000) (q : Fin 128) :
    norm var H g β (ix2 r q) = normAt var H g β r q := rfl

/-- Normalising with two variances that agree column by column gives one array. -/
theorem norm_congr (v v' : Fin 128 → EReal) (hv : ∀ q, v q = v' q) (H : Mat) (g β : Vec128) :
    norm v H g β = norm v' H g β := by
  rw [show v = v' from funext hv]

end Cert.BatchNorm

end
-- ==== Proof.StatsValue.lean ====
/-
  The statistics kernel over its grid: the two accumulators end at the column sums of the whole hidden array.

  The hidden array of the region is `hid = agg·W + b` over all 100000 rows.  Block `t` of the grid holds rows
  `5000·t … 5000·t + 4999`, and a hidden entry depends on one row only, so the hidden rows of block `t` are rows of `hid`.
  The first point clears the accumulators and adds its block's column sums, every later point adds its own: after point `n`
  the sums' accumulator holds the sum of `hid` over the rows of blocks `0 … n` (an induction on the point), and after the
  last point the sum over all rows, cut into 20 blocks of 5000.  The same for the squares.
-/
import proofs.«138549_j15195594293520_1_alg».proof.Proof.StatsCases
import proofs.«138549_j15195594293520_1_alg».proof.Proof.StatsPayload
import proofs.«138549_j15195594293520_1_alg».proof.Proof.Blocks
import proofs.«138549_j15195594293520_1_alg».proof.Proof.LibGridAcc
import proofs.«138549_j15195594293520_1_alg».proof.Proof.Spec

noncomputable section

open scoped BigOperators
open Idealize.ShloMosaic Idealize.ShloMosaic.TcCoe Idealize.SL.Sem Idealize.ShloMosaic.ValueIdx

namespace Cert.KernelIdeal.StatsValue

open Cert.KernelIdeal Cert.KernelIdeal.Gen Cert.Lib.DenseLayer Cert.BatchNorm

variable (V : (c : Dev nD) → (b : Ref sig .tc) → Buf (Elt Ideal) ((c : Thread nD τ).loc b))

/-- The hidden array at the region's entry contents: the dense layer of the aggregated array. -/
def hid (c : Dev nD) : Mat := affine (V c main_v12) (V c main_arg4) (V c main_v13)

/-- Entry `(a, q)` of the hidden array for a row number `a` given as a natural number (zero past the last row). -/
def hidN (c : Dev nD) (q : Fin 128) (a : ℕ) : EReal := if h : a < 100000 then hid V c (ix2 (⟨a, h⟩ : Fin 100000) q) else 0

/-- The hidden rows of block `t` are rows `5000·t + r` of the hidden array. -/
theorem block_hidden (c : Dev nD) (t : Fin cfg0.N) (r : Fin 5000) (q : Fin 128) :
    affine (iblk0 V c 0 t : Vec Ideal S5000x128 .f32) (iblk0 V c 1 t : Vec Ideal S128x128 .f32) (iblk0 V c 2 t : Vec Ideal S1x128 .f32) (ix2 r q)
      = hidN V c q (5000 * t.val + r.val) := by
  have ht : 5000 * t.val + r.val < 100000 := by
    have h1 := t.isLt; have h2 := r.isLt; have hN : cfg0.N = 20 := N_0; omega
  unfold hidN
  rw [dif_pos ht]
  unfold hid
  exact affine_entry (V c main_v12) (iblk0 V c 0 t : Vec Ideal S5000x128 .f32) (V c main_arg4) (iblk0 V c 1 t : Vec Ideal S128x128 .f32)
    (V c main_v13) (iblk0 V c 2 t : Vec Ideal S1x128 .f32) r ⟨5000 * t.val + r.val, ht⟩ q
    (fun k => Blocks.rows0 V c t r k ht) (fun k => by rw [Blocks.weights0]) (by rw [Blocks.bias0])

/-- After point `n` the accumulators hold the sums, and the sums of squares, of the hidden entries of blocks `0 … n`. -/
theorem after_point (c : Dev nD) (q : Fin 128) : ∀ (n : ℕ) (h : n < cfg0.N),
    (outsAt0 V c n h).1 (ix2 (0 : Fin 1) q) = ∑ j ∈ Finset.range (n + 1), ∑ r : Fin 5000, hidN V c q (5000 * j + r.val)
    ∧ (outsAt0 V c n h).2 (ix2 (0 : Fin 1) q)
        = ∑ j ∈ Finset.range (n + 1), ∑ r : Fin 5000, hidN V c q (5000 * j + r.val) * hidN V c q (5000 * j + r.val)
  | 0, h => by
    show (outsAt0 V c 0 h).1 (ix2 (0 : Fin 1) q) = ∑ j ∈ Finset.range 1, ∑ r : Fin 5000, hidN V c q (5000 * j + r.val)
      ∧ (outsAt0 V c 0 h).2 (ix2 (0 : Fin 1) q)
          = ∑ j ∈ Finset.range 1, ∑ r : Fin 5000, hidN V c q (5000 * j + r.val) * hidN V c q (5000 * j + r.val)
    rw [outsAt0_A V c ⟨0, h⟩ rfl]
    dsimp only
    rw [Stats.first_sums, Stats.first_squares, StatsPayload.sums_apply, StatsPayload.squares_apply,
      StatsPayload.cleared_sums, StatsPayload.cleared_squares, Finset.sum_range_one, Finset.sum_range_one]
    exact ⟨(zero_add _).trans (Finset.sum_congr rfl fun r _ => block_hidden V c ⟨0, h⟩ r q),
      (zero_add _).trans (Finset.sum_congr rfl fun r _ => by rw [block_hidden V c ⟨0, h⟩ r q])⟩
  | n + 1, h => by
    have hN : cfg0.N = 20 := N_0
    have hB : ¬(⟨n + 1, h⟩ : Fin cfg0.N).val % 20 = 0 := by dsimp only; omega
    have ih := after_point c q n (Nat.lt_of_succ_lt h)
    rw [outsAt0_B V c ⟨n + 1, h⟩ hB]
    dsimp only
    rw [Stats.later_sums, Stats.later_squares, StatsPayload.sums_apply, StatsPayload.squares_apply,
      Finset.sum_range_succ _ (n + 1), Finset.sum_range_succ _ (n + 1)]
    refine ⟨?_, ?_⟩
    · refine congrArg₂ (· + ·) ih.1 (Finset.sum_congr rfl fun r _ => block_hidden V c ⟨n + 1, h⟩ r q)
    · refine congrArg₂ (· + ·) ih.2 (Finset.sum_congr rfl fun r _ => by rw [block_hidden V c ⟨n + 1, h⟩ r q])

/-- Twenty blocks of 5000 rows are all the rows. -/
theorem blocks_all (f : ℕ → EReal) :
    ∑ j ∈ Finset.range 20, ∑ r : Fin 5000, f (5000 * j + r.val) = ∑ a : Fin 100000, f a.val := by
  rw [Finset.sum_range]
  exact (Cert.Lib.GridAcc.sum_blocks (B := 20) (J := 5000) (fun a : Fin (20 * 5000) => f a.val)).symm

theorem hidN_val (c : Dev nD) (q : Fin 128) (a : Fin 100000) : hidN V c q a.val = hid V c (ix2 a q) := by
  unfold hidN; rw [dif_pos a.isLt]

/-- After the last point the sums' accumulator holds the column sums of the hidden array, -/
theorem last_sums (c : Dev nD) (q : Fin 128) (h : 19 < cfg0.N) :
    (outsAt0 V c 19 h).1 (ix2 (0 : Fin 1) q) = colSum (hid V c) q := by
  rw [(after_point V c q 19 h).1, blocks_all]
  exact Finset.sum_congr rfl fun a _ => hidN_val V c q a

/-- and the squares' accumulator the column sums of its squares. -/
theorem last_squares (c : Dev nD) (q : Fin 128) (h : 19 < cfg0.N) :
    (outsAt0 V c 19 h).2 (ix2 (0 : Fin 1) q) = colSq (hid V c) q := by
  rw [(after_point V c q 19 h).2, blocks_all (fun a => hidN V c q a * hidN V c q a)]
  exact Finset.sum_congr rfl fun a _ => by rw [hidN_val V c q a]

end Cert.KernelIdeal.StatsValue

end
-- ==== Proof.NormValue.lean ====
/-
  The normalising region: its result array, entry by entry.

  At grid point `t` the body holds rows `5000·t … 5000·t + 4999` of the aggregated array and the whole of the weights, the
  bias row, the row of means, the row of reciprocal standard deviations, the scale row and the shift row; it stores
  `((x·w + b − mean) · rstd) · scale + shift` as block `t` of the result.  A hidden entry depends on one row only, so the
  stored block is block `t` of ONE array (`normed`): the hidden array of all rows, normalised column by column.  The 20
  blocks tile the result array, which therefore ends holding `normed`.
-/
import proofs.«138549_j15195594293520_1_alg».proof.Proof.StatsValue
import proofs.«138549_j15195594293520_1_alg».proof.Proof.Blocks
import proofs.«138549_j15195594293520_1_alg».proof.Proof.LibDenseLayer
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.NormValue

open Cert.KernelIdeal Cert.KernelIdeal.Gen Cert.Lib.DenseLayer Cert.BatchNorm Cert.KernelIdeal.StatsValue

theorem hz : (![0, 0] : Fin 2 → Nat) = fun _ => 0 := funext fun a => by fin_cases a <;> rfl

/-- The body's stored value at row `r`, column `q` of a block: the hidden entry minus the column's mean, times the column's
    reciprocal standard deviation, times the scale, plus the shift. -/
theorem stored_apply (x : Vec Ideal S5000x128 .f32) (w : Vec Ideal S128x128 .f32) (b mu rs g be : Vec Ideal S1x128 .f32)
    (r : Fin 5000) (q : Fin 128) :
    k1_pay1 (F := Ideal) x w b mu rs g be (ix2 r q)
      = ((affine x w b (ix2 r q) - mu (ix2 (0 : Fin 1) q)) * rs (ix2 (0 : Fin 1) q)) * g (ix2 (0 : Fin 1) q)
        + be (ix2 (0 : Fin 1) q) := by
  have hidden : addf (matmul dot_S5000x128_S128x128_S5000x128_1_0_0_1_n_n none
        (truncf .bf16 (shapeCast S5000x128 x shapeCasts_S5000x128_S5000x128) bitsLt_bf16_f32) (truncf .bf16 w bitsLt_bf16_f32)
        (constant S5000x128 .f32 0x00000000#32))
      (broadcastTo S5000x128 (shapeCast S1x128 b shapeCasts_S1x128_S1x128) broadcasts_S1x128_S5000x128) = affine x w b :=
    block_affine_eq _ rfl _ _ _ _ x w b
  unfold k1_pay1
  rw [addf_apply, mulf_apply, mulf_apply, subf_apply, hidden]
  simp only [shapeCast_self, broadcastTo_1b_ab_apply]

variable (V : (c : Dev nD) → (b : Ref sig .tc) → Buf (Elt Ideal) ((c : Thread nD τ).loc b))

/-- The array the region leaves: the hidden array of the region's entry contents, normalised column by column with the
    rows the region finds in its mean, reciprocal-deviation, scale and shift arrays. -/
def normed (c : Dev nD) : Buf (Elt Ideal) ((c : Thread nD τ).loc main_v26) := fun i =>
  ((hid V c (ix2 (n0 := 100000) (n1 := 128) (i 0) (i 1)) - V c main_v18 (ix2 (n0 := 1) (n1 := 128) (0 : Fin 1) (i 1)))
      * V c main_v25 (ix2 (n0 := 1) (n1 := 128) (0 : Fin 1) (i 1))) * V c main_v14 (ix2 (n0 := 1) (n1 := 128) (0 : Fin 1) (i 1))
    + V c main_v15 (ix2 (n0 := 1) (n1 := 128) (0 : Fin 1) (i 1))

theorem normed_apply (c : Dev nD) (a : Fin 100000) (q : Fin 128) :
    normed V c (ix2 a q)
      = ((hid V c (ix2 a q) - V c main_v18 (ix2 (0 : Fin 1) q)) * V c main_v25 (ix2 (0 : Fin 1) q)) * V c main_v14 (ix2 (0 : Fin 1) q)
        + V c main_v15 (ix2 (0 : Fin 1) q) := rfl

/-- WHAT POINT `t` WRITES BACK is block `t` of `normed`. -/
theorem flushed_eq (c : Dev nD) (t : Fin cfg1.N) :
    (dat1 V c).flushed 7 t = ((cfg1.win 7).blk t).view.read (Elt Ideal) (normed V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [Blocks.weights1, Blocks.bias1, Blocks.mean1, Blocks.rstd1, Blocks.gamma1, Blocks.beta1]
  funext j
  obtain ⟨r, q, rfl⟩ : ∃ (r : Fin 5000) (q : Fin 128), j = ix2 r q := ⟨j 0, j 1, eq_ix2 j⟩
  have ht : 5000 * t.val + r.val < 100000 := by
    have h1 := t.isLt; have h2 := r.isLt; have hN : cfg1.N = 20 := N_1; omega
  have he : ((cfg1.win 7).blk t).view.emb (ix2 r q) = ix2 (⟨5000 * t.val + r.val, ht⟩ : Fin 100000) q := by
    funext a
    apply Fin.ext
    match a with
    | ⟨0, _⟩ => show win1_7.index t 0 * 5000 + 1 * r.val = 5000 * t.val + r.val; rw [(Blocks.idx1 t).2.2.2.2.2.2.2.2.2.2.2.2.2.2.1]; omega
    | ⟨1, _⟩ => show win1_7.index t 1 * 128 + 1 * q.val = q.val; rw [(Blocks.idx1 t).2.2.2.2.2.2.2.2.2.2.2.2.2.2.2]; omega
  show k1_pay1 (F := Ideal) (iblk1 V c 0 t) (V c main_arg4) (V c main_v13) (V c main_v18) (V c main_v25) (V c main_v14) (V c main_v15) (ix2 r q)
    = normed V c (((cfg1.win 7).blk t).view.emb (ix2 r q))
  rw [he, normed_apply, stored_apply]
  unfold hid
  rw [affine_entry (V c main_v12) (iblk1 V c 0 t : Vec Ideal S5000x128 .f32) (V c main_arg4) (V c main_arg4) (V c main_v13) (V c main_v13)
    r ⟨5000 * t.val + r.val, ht⟩ q (fun k => Blocks.rows1 V c t r k ht) (fun _ => rfl) rfl]

/-- An index of the result array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v26).slice (win1_7.rect t)).set ↔ _
  rw [View.set_slice_whole, Rect.mem_set_unit]
  exact Iff.rfl

/-- Row `a` lies in the block of point `a / 5000`: the 20 blocks cover the result array. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  refine ⟨⟨(i 0).val / 5000, by omega⟩, flush1_7 _, ?_⟩
  rw [mem_blk]
  intro a
  match a with
  | ⟨0, _⟩ =>
    show win1_7.index ⟨(i 0).val / 5000, _⟩ 0 * 5000 ≤ (i 0).val ∧ (i 0).val < win1_7.index ⟨(i 0).val / 5000, _⟩ 0 * 5000 + 5000
    rw [(Blocks.idx1 ⟨(i 0).val / 5000, by omega⟩).2.2.2.2.2.2.2.2.2.2.2.2.2.2.1]
    show (i 0).val / 5000 * 5000 ≤ (i 0).val ∧ (i 0).val < (i 0).val / 5000 * 5000 + 5000
    omega
  | ⟨1, _⟩ =>
    show win1_7.index ⟨(i 0).val / 5000, _⟩ 1 * 128 ≤ (i 1).val ∧ (i 1).val < win1_7.index ⟨(i 0).val / 5000, _⟩ 1 * 128 + 128
    rw [(Blocks.idx1 ⟨(i 0).val / 5000, by omega⟩).2.2.2.2.2.2.2.2.2.2.2.2.2.2.2]
    omega

/-- THE ARRAY after the region: `normed`. -/
theorem final (c : Dev nD) : (dat1 V c).arrAt 7 cfg1.N = normed V c :=
  (dat1 V c).arrAt_eq_of_cover 7 (normed V c) (fun t _ => flushed_eq V c t) covered

end Cert.KernelIdeal.NormValue

end
-- ==== Proof.StatsArray.lean ====
/-
  The statistics region's two result arrays.

  Each accumulator's block index never moves, so it is written back once, after the last grid point, and its [1,128]
  array ends holding what the accumulator holds then: in column `q` the column sum of the hidden array (`sums_entry`),
  respectively the column sum of its squares (`squares_entry`).
-/
import proofs.«138549_j15195594293520_1_alg».proof.Proof.StatsValue
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.StatsArray

open Cert.KernelIdeal Cert.KernelIdeal.Gen Cert.BatchNorm Cert.KernelIdeal.StatsValue

variable (V : (c : Dev nD) → (b : Ref sig .tc) → Buf (Elt Ideal) ((c : Thread nD τ).loc b))

/-- The last grid point. -/
abbrev t19 : Fin cfg0.N := ⟨19, by decide⟩

/-- The accumulators' contents after the last point, as contents of their arrays. -/
abbrev sumsRow (c : Dev nD) : Buf (Elt Ideal) ((c : Thread nD τ).loc main_v16_0) := (outsAt0 V c 19 t19.isLt).1
abbrev squaresRow (c : Dev nD) : Buf (Elt Ideal) ((c : Thread nD τ).loc main_v16_1) := (outsAt0 V c 19 t19.isLt).2

/-- The one write-back of this accumulator, at the last point, writes its final contents: block (0, 0) of the [1,128] array
    read through zero offsets is the array. -/
theorem flushed_sums (c : Dev nD) (t : Fin cfg0.N) (hf : (cfg0.win 3).flush t = true) :
    (dat0 V c).flushed 3 t = ((cfg0.win 3).blk t).view.read (Elt Ideal) (sumsRow V c) := by
  have hN : cfg0.N = 20 := N_0
  have h19 : t.val = 19 := by have := (flush0_3 t).mp hf; have := t.isLt; omega
  obtain rfl : t = t19 := Fin.ext h19
  show (cfg0.win 3).cut (grid0.coords t19) ((dat0 V c).after 3 t19) = _
  rw [after0_3]
  have hz' : (fun a => win0_3.index t19 a * main_v16_0.ty.shape.size a) = fun _ => 0 := funext fun a => by fin_cases a <;> decide +kernel
  exact (Memref.read_access_unit_zero (Elt Ideal) main_v16_0 hz' (fun a => by rw [congrFun hz' a]; simp) (sumsRow V c)).symm

/-- So the array ends holding the accumulator's contents after the last point. -/
theorem final_sums (c : Dev nD) : (dat0 V c).arrAt 3 cfg0.N = sumsRow V c :=
  (dat0 V c).arrAt_eq_of_cover 3 (sumsRow V c) (flushed_sums V c) fun i =>
    ⟨t19, (flush0_3 t19).mpr rfl, by
      show i ∈ ((View.whole main_v16_0).slice (win0_3.rect t19)).set
      rw [View.set_slice_whole, Rect.mem_set_unit]
      intro a
      have h0 : (i 0 : Nat) < 1 := (i 0).isLt
      have h1 : (i 1 : Nat) < 128 := (i 1).isLt
      match a with
      | ⟨0, _⟩ => show win0_3.index t19 0 * win0_3.size 0 ≤ (i 0 : Nat) ∧ (i 0 : Nat) < win0_3.index t19 0 * win0_3.size 0 + win0_3.xsize (grid0.coords t19) 0
                  rw [show win0_3.index t19 0 * win0_3.size 0 = 0 from by decide +kernel, show win0_3.xsize (grid0.coords t19) 0 = 1 from by decide +kernel]; omega
      | ⟨1, _⟩ => show win0_3.index t19 1 * win0_3.size 1 ≤ (i 1 : Nat) ∧ (i 1 : Nat) < win0_3.index t19 1 * win0_3.size 1 + win0_3.xsize (grid0.coords t19) 1
                  rw [show win0_3.index t19 1 * win0_3.size 1 = 0 from by decide +kernel, show win0_3.xsize (grid0.coords t19) 1 = 128 from by decide +kernel]; omega⟩

/-- The one write-back of this accumulator, at the last point, writes its final contents: block (0, 0) of the [1,128] array
    read through zero offsets is the array. -/
theorem flushed_squares (c : Dev nD) (t : Fin cfg0.N) (hf : (cfg0.win 4).flush t = true) :
    (dat0 V c).flushed 4 t = ((cfg0.win 4).blk t).view.read (Elt Ideal) (squaresRow V c) := by
  have hN : cfg0.N = 20 := N_0
  have h19 : t.val = 19 := by have := (flush0_4 t).mp hf; have := t.isLt; omega
  obtain rfl : t = t19 := Fin.ext h19
  show (cfg0.win 4).cut (grid0.coords t19) ((dat0 V c).after 4 t19) = _
  rw [after0_4]
  have hz' : (fun a => win0_4.index t19 a * main_v16_1.ty.shape.size a) = fun _ => 0 := funext fun a => by fin_cases a <;> decide +kernel
  exact (Memref.read_access_unit_zero (Elt Ideal) main_v16_1 hz' (fun a => by rw [congrFun hz' a]; simp) (squaresRow V c)).symm

/-- So the array ends holding the accumulator's contents after the last point. -/
theorem final_squares (c : Dev nD) : (dat0 V c).arrAt 4 cfg0.N = squaresRow V c :=
  (dat0 V c).arrAt_eq_of_cover 4 (squaresRow V c) (flushed_squares V c) fun i =>
    ⟨t19, (flush0_4 t19).mpr rfl, by
      show i ∈ ((View.whole main_v16_1).slice (win0_4.rect t19)).set
      rw [View.set_slice_whole, Rect.mem_set_unit]
      intro a
      have h0 : (i 0 : Nat) < 1 := (i 0).isLt
      have h1 : (i 1 : Nat) < 128 := (i 1).isLt
      match a with
      | ⟨0, _⟩ => show win0_4.index t19 0 * win0_4.size 0 ≤ (i 0 : Nat) ∧ (i 0 : Nat) < win0_4.index t19 0 * win0_4.size 0 + win0_4.xsize (grid0.coords t19) 0
                  rw [show win0_4.index t19 0 * win0_4.size 0 = 0 from by decide +kernel, show win0_4.xsize (grid0.coords t19) 0 = 1 from by decide +kernel]; omega
      | ⟨1, _⟩ => show win0_4.index t19 1 * win0_4.size 1 ≤ (i 1 : Nat) ∧ (i 1 : Nat) < win0_4.index t19 1 * win0_4.size 1 + win0_4.xsize (grid0.coords t19) 1
                  rw [show win0_4.index t19 1 * win0_4.size 1 = 0 from by decide +kernel, show win0_4.xsize (grid0.coords t19) 1 = 128 from by decide +kernel]; omega⟩

/-- Column `q` of the first result array is the column sum of the hidden array, -/
theorem sums_entry (c : Dev nD) (q : Fin 128) : (dat0 V c).arrAt 3 cfg0.N (ix2 (0 : Fin 1) q) = colSum (hid V c) q := by
  rw [final_sums]; exact last_sums V c q t19.isLt

/-- and column `q` of the second the column sum of its squares. -/
theorem squares_entry (c : Dev nD) (q : Fin 128) : (dat0 V c).arrAt 4 cfg0.N (ix2 (0 : Fin 1) q) = colSq (hid V c) q := by
  rw [final_squares]; exact last_squares V c q t19.isLt

end Cert.KernelIdeal.StatsArray

end
-- ==== Proof.HostBefore.lean ====
/-
  What the kernel's buffers hold when its first region is entered.

  Before its first region the kernel runs the same sixteen operations as the reference's first sixteen — the edge rows
  wrapped into range, the source rows gathered, each multiplied by its edge value, and the products added into the
  destination rows of an all-zero array — and then lays the bias, the scale and the shift vectors out as rows of 128.
  So at the first region's entry the aggregated array is the reference's aggregated array of the same arguments, the
  three rows are the three vectors read as 1 × 128 arrays, and the weights, which no operation writes, are as launched.
-/
import proofs.«138549_j15195594293520_1_alg».proof.Proof.Gen.KernelIdeal.Frame
import proofs.«138549_j15195594293520_1_alg».proof.Proof.Gen.ReferenceIdeal.Read
import Idealize.ShloMosaic.Lib.StableHlo.Run
import Idealize.ShloMosaic.PureOps.Ideal

set_option maxRecDepth 16384

noncomputable section

namespace Cert.KernelIdeal.HostBefore

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- THE AGGREGATED ARRAY at the first region's entry is the reference's aggregated array of the same four arguments
    (source rows, edge rows, destination rows, edge values): the two programs run the same sixteen operations. -/
theorem agg_entry :
    V1 m ρ c main_v12 = Cert.ReferenceIdeal.Read.val_main_v12 (F := Ideal)
      (m ((c : Thread nD τ).loc main_arg0)) (m ((c : Thread nD τ).loc main_arg1))
      (m ((c : Thread nD τ).loc main_arg2)) (m ((c : Thread nD τ).loc main_arg3)) := by
  show StableHlo.after hostOps0 (W0 m ρ c) (Proc.devRef .tc main_v12) = _
  after_results
  rfl

/-- The bias row at the first region's entry is the bias vector read as a 1 × 128 array. -/
theorem bias_entry :
    V1 m ρ c main_v13 = shapeCast S1x128 (m ((c : Thread nD τ).loc main_arg5)) shapeCasts_S128_S1x128 := by
  show StableHlo.after hostOps0 (W0 m ρ c) (Proc.devRef .tc main_v13) = _
  after_results
  rfl

/-- The scale row at the first region's entry is the scale vector read as a 1 × 128 array. -/
theorem gamma_entry :
    V1 m ρ c main_v14 = shapeCast S1x128 (m ((c : Thread nD τ).loc main_arg6)) shapeCasts_S128_S1x128 := by
  show StableHlo.after hostOps0 (W0 m ρ c) (Proc.devRef .tc main_v14) = _
  after_results
  rfl

/-- The shift row at the first region's entry is the shift vector read as a 1 × 128 array. -/
theorem beta_entry :
    V1 m ρ c main_v15 = shapeCast S1x128 (m ((c : Thread nD τ).loc main_arg7)) shapeCasts_S128_S1x128 := by
  show StableHlo.after hostOps0 (W0 m ρ c) (Proc.devRef .tc main_v15) = _
  after_results
  rfl

/-- The weights at the first region's entry are the weights as launched: no operation before the region writes an
    argument. -/
theorem weights_entry : V1 m ρ c main_arg4 = m ((c : Thread nD τ).loc main_arg4) :=
  calc W1 m ρ c (Proc.devRef .tc main_arg4)
    _ = W0 m ρ c (Proc.devRef .tc main_arg4) :=
          StableHlo.after_of_forall_not_mem (b := Proc.devRef .tc main_arg4) _ _ (List.forall_iff_forall_mem.mp (by
            simp only [hostOps0, List.flatten_cons, List.flatten_nil, List.append_nil, List.cons_append,
              List.nil_append, List.Forall, StableHlo.nullary_writes, StableHlo.unary_writes,
              StableHlo.binary_writes, StableHlo.ternary_writes, StableHlo.quaternary_writes,
              StableHlo.reshape_writes, StableHlo.binaryIndexed_writes, Finset.mem_singleton]
            repeat' apply And.intro
            all_goals exact StableHlo.devRef_ne_of_ne (by decide)))
    _ = m ((c : Thread nD τ).loc main_arg4) := rfl

end Cert.KernelIdeal.HostBefore

end
-- ==== Proof.HostBetween.lean ====
/-
  What the kernel's buffers hold when its second region is entered.

  Between the two regions the program computes, from the two accumulated rows the first region leaves — the column sums
  and the column sums of squares —, the mean (column sum / 100000), the mean of the squares, their difference with the
  square of the mean, that plus the stabiliser, and its inverse square root.  No operation of this stretch writes the
  aggregated array, the weights, the bias row, the scale row or the shift row; the first region only reads the first
  three (they are arrays of its input windows) and does not touch the last two.  So each of these five holds at the
  second region's entry what it held at the first region's entry, and the mean and the inverse standard deviation are
  the stated expressions in the two accumulated rows.
-/
import proofs.«138549_j15195594293520_1_alg».proof.Proof.Gen.KernelIdeal.Frame
import Idealize.ShloMosaic.Lib.StableHlo.Run
import Idealize.ShloMosaic.PureOps.Ideal

set_option maxRecDepth 16384

noncomputable section

namespace Cert.KernelIdeal.HostBetween

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Closes "no operation of the stretch between the regions writes this buffer": the stretch is a literal list, each
    operation writes one named buffer, and that name differs from the buffer's. -/
local macro "not_written_between" : tactic =>
  `(tactic| (
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The five arrays the stretch and the first region leave as they were -/

/-- The aggregated array at the second region's entry is the aggregated array at the first region's entry: the first
    region reads it through an input window and the stretch between the regions does not write it. -/
theorem kept_agg : V3 m ρ c main_v12 = V1 m ρ c main_v12 :=
  calc W3 m ρ c (Proc.devRef .tc main_v12)
    _ = W2 m ρ c (Proc.devRef .tc main_v12) :=
          StableHlo.after_of_forall_not_mem (b := Proc.devRef .tc main_v12) _ _
            (List.forall_iff_forall_mem.mp (by not_written_between))
    _ = W1 m ρ c (Proc.devRef .tc main_v12) :=
          (W2_arr m ρ c 0).trans (((dat0 (V1 m ρ) c).arrAt_in 0 rfl _).trans (A_eq0 (V1 m ρ) c 0))

/-- The weights at the second region's entry are the weights at the first region's entry (an input window's array of
    the first region; not written between the regions). -/
theorem kept_weights : V3 m ρ c main_arg4 = V1 m ρ c main_arg4 :=
  calc W3 m ρ c (Proc.devRef .tc main_arg4)
    _ = W2 m ρ c (Proc.devRef .tc main_arg4) :=
          StableHlo.after_of_forall_not_mem (b := Proc.devRef .tc main_arg4) _ _
            (List.forall_iff_forall_mem.mp (by not_written_between))
    _ = W1 m ρ c (Proc.devRef .tc main_arg4) :=
          (W2_arr m ρ c 1).trans (((dat0 (V1 m ρ) c).arrAt_in 1 rfl _).trans (A_eq0 (V1 m ρ) c 1))

/-- The bias row at the second region's entry is the bias row at the first region's entry (an input window's array of
    the first region; not written between the regions). -/
theorem kept_bias : V3 m ρ c main_v13 = V1 m ρ c main_v13 :=
  calc W3 m ρ c (Proc.devRef .tc main_v13)
    _ = W2 m ρ c (Proc.devRef .tc main_v13) :=
          StableHlo.after_of_forall_not_mem (b := Proc.devRef .tc main_v13) _ _
            (List.forall_iff_forall_mem.mp (by not_written_between))
    _ = W1 m ρ c (Proc.devRef .tc main_v13) :=
          (W2_arr m ρ c 2).trans (((dat0 (V1 m ρ) c).arrAt_in 2 rfl _).trans (A_eq0 (V1 m ρ) c 2))

/-- The scale row at the second region's entry is the scale row at the first region's entry: it is no window's array
    of the first region, and the stretch between the regions does not write it. -/
theorem kept_gamma : V3 m ρ c main_v14 = V1 m ρ c main_v14 :=
  calc W3 m ρ c (Proc.devRef .tc main_v14)
    _ = W2 m ρ c (Proc.devRef .tc main_v14) :=
          StableHlo.after_of_forall_not_mem (b := Proc.devRef .tc main_v14) _ _
            (List.forall_iff_forall_mem.mp (by not_written_between))
    _ = W1 m ρ c (Proc.devRef .tc main_v14) := W2_of_ne m ρ c main_v14 (by decide)

/-- The shift row at the second region's entry is the shift row at the first region's entry (no window's array of the
    first region; not written between the regions). -/
theorem kept_beta : V3 m ρ c main_v15 = V1 m ρ c main_v15 :=
  calc W3 m ρ c (Proc.devRef .tc main_v15)
    _ = W2 m ρ c (Proc.devRef .tc main_v15) :=
          StableHlo.after_of_forall_not_mem (b := Proc.devRef .tc main_v15) _ _
            (List.forall_iff_forall_mem.mp (by not_written_between))
    _ = W1 m ρ c (Proc.devRef .tc main_v15) := W2_of_ne m ρ c main_v15 (by decide)

/-! ## The two rows the stretch computes -/

/-- The first region leaves the row of column sums in its fourth window's array. -/
theorem sums_exit : W2 m ρ c (Proc.devRef .tc main_v16_0) = (dat0 (V1 m ρ) c).arrAt 3 cfg0.N := W2_arr m ρ c 3

/-- The first region leaves the row of column sums of squares in its fifth window's array. -/
theorem squares_exit : W2 m ρ c (Proc.devRef .tc main_v16_1) = (dat0 (V1 m ρ) c).arrAt 4 cfg0.N := W2_arr m ρ c 4

/-- THE MEAN ROW at the second region's entry: the row of column sums the first region leaves, divided entry by entry
    by 100000. -/
theorem mean_entry :
    V3 m ρ c main_v18 = Host.divf (F := Ideal) ((dat0 (V1 m ρ) c).arrAt 3 cfg0.N)
      (broadcastInDim S1x128 ![] bcast_S_S1x128 (constant (F := Ideal) S_ .f32 0x47C35000#32)) := by
  show StableHlo.after hostOps1 (W2 m ρ c) (Proc.devRef .tc main_v18) = _
  after_results
  rw [sums_exit m ρ c]

/-- THE INVERSE STANDARD DEVIATION ROW at the second region's entry: the inverse square root of (the row of column sums
    of squares divided by 100000, minus the square of the mean row, plus the stabiliser). -/
theorem rstd_entry :
    V3 m ρ c main_v25 = Host.rsqrt (F := Ideal) (addf (subf
      (Host.divf (F := Ideal) ((dat0 (V1 m ρ) c).arrAt 4 cfg0.N)
        (broadcastInDim S1x128 ![] bcast_S_S1x128 (constant (F := Ideal) S_ .f32 0x47C35000#32)))
      (mulf (V3 m ρ c main_v18) (V3 m ρ c main_v18)))
      (broadcastInDim S1x128 ![] bcast_S_S1x128 (constant (F := Ideal) S_ .f32 0x3727C5AC#32))) := by
  have hmean : V3 m ρ c main_v18 = Host.divf (F := Ideal) (W2 m ρ c (Proc.devRef .tc main_v16_0))
      (broadcastInDim S1x128 ![] bcast_S_S1x128 (constant (F := Ideal) S_ .f32 0x47C35000#32)) := by
    show StableHlo.after hostOps1 (W2 m ρ c) (Proc.devRef .tc main_v18) = _
    after_results
  have hrstd : V3 m ρ c main_v25 = Host.rsqrt (F := Ideal) (addf (subf
      (Host.divf (F := Ideal) (W2 m ρ c (Proc.devRef .tc main_v16_1))
        (broadcastInDim S1x128 ![] bcast_S_S1x128 (constant (F := Ideal) S_ .f32 0x47C35000#32)))
      (mulf
        (Host.divf (F := Ideal) (W2 m ρ c (Proc.devRef .tc main_v16_0))
          (broadcastInDim S1x128 ![] bcast_S_S1x128 (constant (F := Ideal) S_ .f32 0x47C35000#32)))
        (Host.divf (F := Ideal) (W2 m ρ c (Proc.devRef .tc main_v16_0))
          (broadcastInDim S1x128 ![] bcast_S_S1x128 (constant (F := Ideal) S_ .f32 0x47C35000#32)))))
      (broadcastInDim S1x128 ![] bcast_S_S1x128 (constant (F := Ideal) S_ .f32 0x3727C5AC#32))) := by
    show StableHlo.after hostOps1 (W2 m ρ c) (Proc.devRef .tc main_v25) = _
    after_results
  exact hrstd.trans (congrArg₂
    (fun (y μ : FVec Ideal S1x128 .f32) => Host.rsqrt (F := Ideal) (addf (subf
      (Host.divf (F := Ideal) y
        (broadcastInDim S1x128 ![] bcast_S_S1x128 (constant (F := Ideal) S_ .f32 0x47C35000#32)))
      (mulf μ μ))
      (broadcastInDim S1x128 ![] bcast_S_S1x128 (constant (F := Ideal) S_ .f32 0x3727C5AC#32))))
    (squares_exit m ρ c) hmean.symm)

end Cert.KernelIdeal.HostBetween

end
-- ==== Proof.KernelRows.lean ====
/-
  The kernel's spelling of the normalisation, read at an entry.

  Between its two passes over the rows the kernel has two rows of column totals, `S1 q = ∑ r, H (r, q)` and
  `S2 q = ∑ r, H (r, q)²`.  From them it forms, column by column, `μ = S1 / 100000` and
  `ρ = rsqrt ((S2 / 100000 − μ · μ) + ε)`, and then writes `((H − μ) · ρ) · γ + β` with the scale and shift vectors read as rows.
  Read at the entry `(r, q)`: a quotient, difference, product, sum or reciprocal square root of rows is that of their entries; a
  scalar constant broadcast to a row is the constant at every entry; a vector read as a one-row array is the vector.  So `μ q` is
  the mean of column `q`, `S2 q / 100000 − μ q · μ q` is the variance of the column from its moments, and the entry written is
  `Cert.BatchNorm.normAt (varMoments H) H γ β r q`.
-/
import proofs.«138549_j15195594293520_1_alg».proof.KernelIdeal
import proofs.«138549_j15195594293520_1_alg».proof.Proof.Spec
import Idealize.ShloMosaic.Lib.ValueLayout
import Idealize.ShloMosaic.Lib.Pipeline.Value
import Idealize.ShloMosaic.Lib.ValueIdx

noncomputable section

open scoped BigOperators

namespace Cert.BatchNorm.Kernel

open Cert.KernelIdeal Idealize.ShloMosaic Idealize.ShloMosaic.ValueIdx

/-- The host's quotient of two arrays, at an index, is the quotient of the entries. -/
theorem hostDivf_apply {s : Shape} {φ : FTy} (a b : FVec Ideal s φ) (i : s.Idx) :
    Host.divf (F := Ideal) a b i = Ideal.div (a i) (b i) := rfl
/-- The host's reciprocal square root of an array, at an index, is that of the entry. -/
theorem hostRsqrt_apply {s : Shape} {φ : FTy} (a : FVec Ideal s φ) (i : s.Idx) :
    Host.rsqrt (F := Ideal) a i = Ideal.rsqrt (a i) := rfl

/-- A scalar constant broadcast to a one-row array is, at every entry, the extended real its word denotes. -/
theorem const_row_apply (hb : S_.BroadcastsInDim S1x128 (![] : Fin 0 → Fin S1x128.rank)) (b : BitVec 32) (i : S1x128.Idx) :
    broadcastInDim S1x128 ![] hb (constant (F := Ideal) S_ .f32 b) i = Ideal.ofBits .f32 b :=
  broadcastInDim_apply _ hb _ i ix0 (fun a => a.elim0)

/-- THE ENTRY the kernel writes is the specification's, with the variance from the moments — for any proofs `hb`, `hsc` of the
    two shape side conditions.  With `S1`, `S2` the rows of column sums and of column sums of squares, `μ = S1 / 100000` is the
    column's mean, `S2 / 100000 − μ · μ` its variance from the moments and `ρ` the reciprocal square root of that variance plus
    `ε`; the scale and shift read as rows are the vectors themselves. -/
theorem rows_to_norm' (H : Cert.BatchNorm.Mat) (S1 S2 mu rs : Vec Ideal S1x128 .f32) (g β : Vec Ideal S128 .f32)
    (hb : S_.BroadcastsInDim S1x128 (![] : Fin 0 → Fin S1x128.rank)) (hsc : S128.ShapeCasts S1x128)
    (h1 : ∀ q : Fin 128, S1 (ix2 (0 : Fin 1) q) = colSum H q) (h2 : ∀ q : Fin 128, S2 (ix2 (0 : Fin 1) q) = colSq H q)
    (hmu : mu = Host.divf (F := Ideal) S1 (broadcastInDim S1x128 ![] hb (constant (F := Ideal) S_ .f32 0x47C35000#32)))
    (hrs : rs = Host.rsqrt (F := Ideal) (addf (subf (Host.divf (F := Ideal) S2
        (broadcastInDim S1x128 ![] hb (constant (F := Ideal) S_ .f32 0x47C35000#32))) (mulf mu mu))
        (broadcastInDim S1x128 ![] hb (constant (F := Ideal) S_ .f32 0x3727C5AC#32))))
    (r : Fin 100000) (q : Fin 128) :
    ((H (ix2 r q) - mu (ix2 (0 : Fin 1) q)) * rs (ix2 (0 : Fin 1) q)) * shapeCast S1x128 g hsc (ix2 (0 : Fin 1) q)
        + shapeCast S1x128 β hsc (ix2 (0 : Fin 1) q)
      = normAt (varMoments H) H g β r q := by
  have emu : mu (ix2 (0 : Fin 1) q) = mean H q := by
    rw [hmu, hostDivf_apply, const_row_apply, h1, mean]
  have ers : rs (ix2 (0 : Fin 1) q) = Ideal.rsqrt (varMoments H q + cEps) := by
    rw [hrs, hostRsqrt_apply, addf_apply, subf_apply, hostDivf_apply, mulf_apply, const_row_apply, const_row_apply, h2, emu,
      varMoments]
  rw [emu, ers, shapeCast_a_1a_apply g hsc 0 q, shapeCast_a_1a_apply β hsc 0 q, normAt]

/-- The array form: an array whose every entry is the kernel's expression is the normalised array with the variance from the
    moments. -/
theorem rows_to_norm_array' (H out : Cert.BatchNorm.Mat) (S1 S2 mu rs : Vec Ideal S1x128 .f32) (g β : Vec Ideal S128 .f32)
    (hb : S_.BroadcastsInDim S1x128 (![] : Fin 0 → Fin S1x128.rank)) (hsc : S128.ShapeCasts S1x128)
    (h1 : ∀ q : Fin 128, S1 (ix2 (0 : Fin 1) q) = colSum H q) (h2 : ∀ q : Fin 128, S2 (ix2 (0 : Fin 1) q) = colSq H q)
    (hmu : mu = Host.divf (F := Ideal) S1 (broadcastInDim S1x128 ![] hb (constant (F := Ideal) S_ .f32 0x47C35000#32)))
    (hrs : rs = Host.rsqrt (F := Ideal) (addf (subf (Host.divf (F := Ideal) S2
        (broadcastInDim S1x128 ![] hb (constant (F := Ideal) S_ .f32 0x47C35000#32))) (mulf mu mu))
        (broadcastInDim S1x128 ![] hb (constant (F := Ideal) S_ .f32 0x3727C5AC#32))))
    (hout : ∀ (r : Fin 100000) (q : Fin 128), out (ix2 r q)
      = ((H (ix2 r q) - mu (ix2 (0 : Fin 1) q)) * rs (ix2 (0 : Fin 1) q)) * shapeCast S1x128 g hsc (ix2 (0 : Fin 1) q)
        + shapeCast S1x128 β hsc (ix2 (0 : Fin 1) q)) :
    out = norm (varMoments H) H g β := by
  funext i
  obtain ⟨r, q, rfl⟩ : ∃ (r : Fin 100000) (q : Fin 128), i = ix2 r q := ⟨i 0, i 1, eq_ix2 i⟩
  rw [hout r q, norm_apply]
  exact rows_to_norm' H S1 S2 mu rs g β hb hsc h1 h2 hmu hrs r q

/-! ## The same two statements with the program's own names for the two side conditions -/

section
variable [Cert.KernelIdeal.Facts₀]
open Cert.KernelIdeal.Facts₀

/-- `rows_to_norm'` at the program's side conditions `bcast_S_S1x128` and `shapeCasts_S128_S1x128`. -/
theorem rows_to_norm (H : Cert.BatchNorm.Mat) (S1 S2 mu rs : Vec Ideal S1x128 .f32) (g β : Vec Ideal S128 .f32)
    (h1 : ∀ q : Fin 128, S1 (ix2 (0 : Fin 1) q) = colSum H q) (h2 : ∀ q : Fin 128, S2 (ix2 (0 : Fin 1) q) = colSq H q)
    (hmu : mu = Host.divf (F := Ideal) S1 (broadcastInDim S1x128 ![] bcast_S_S1x128 (constant (F := Ideal) S_ .f32 0x47C35000#32)))
    (hrs : rs = Host.rsqrt (F := Ideal) (addf (subf (Host.divf (F := Ideal) S2
        (broadcastInDim S1x128 ![] bcast_S_S1x128 (constant (F := Ideal) S_ .f32 0x47C35000#32))) (mulf mu mu))
        (broadcastInDim S1x128 ![] bcast_S_S1x128 (constant (F := Ideal) S_ .f32 0x3727C5AC#32))))
    (r : Fin 100000) (q : Fin 128) :
    ((H (ix2 r q) - mu (ix2 (0 : Fin 1) q)) * rs (ix2 (0 : Fin 1) q)) * shapeCast S1x128 g shapeCasts_S128_S1x128 (ix2 (0 : Fin 1) q)
        + shapeCast S1x128 β shapeCasts_S128_S1x128 (ix2 (0 : Fin 1) q)
      = normAt (varMoments H) H g β r q :=
  rows_to_norm' H S1 S2 mu rs g β bcast_S_S1x128 shapeCasts_S128_S1x128 h1 h2 hmu hrs r q

/-- `rows_to_norm_array'` at the program's side conditions. -/
theorem rows_to_norm_array (H out : Cert.BatchNorm.Mat) (S1 S2 mu rs : Vec Ideal S1x128 .f32) (g β : Vec Ideal S128 .f32)
    (h1 : ∀ q : Fin 128, S1 (ix2 (0 : Fin 1) q) = colSum H q) (h2 : ∀ q : Fin 128, S2 (ix2 (0 : Fin 1) q) = colSq H q)
    (hmu : mu = Host.divf (F := Ideal) S1 (broadcastInDim S1x128 ![] bcast_S_S1x128 (constant (F := Ideal) S_ .f32 0x47C35000#32)))
    (hrs : rs = Host.rsqrt (F := Ideal) (addf (subf (Host.divf (F := Ideal) S2
        (broadcastInDim S1x128 ![] bcast_S_S1x128 (constant (F := Ideal) S_ .f32 0x47C35000#32))) (mulf mu mu))
        (broadcastInDim S1x128 ![] bcast_S_S1x128 (constant (F := Ideal) S_ .f32 0x3727C5AC#32))))
    (hout : ∀ (r : Fin 100000) (q : Fin 128), out (ix2 r q)
      = ((H (ix2 r q) - mu (ix2 (0 : Fin 1) q)) * rs (ix2 (0 : Fin 1) q))
          * shapeCast S1x128 g shapeCasts_S128_S1x128 (ix2 (0 : Fin 1) q)
        + shapeCast S1x128 β shapeCasts_S128_S1x128 (ix2 (0 : Fin 1) q)) :
    out = norm (varMoments H) H g β :=
  rows_to_norm_array' H out S1 S2 mu rs g β bcast_S_S1x128 shapeCasts_S128_S1x128 h1 h2 hmu hrs hout

end

end Cert.BatchNorm.Kernel

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.VarLaw.lean ====
/-
  The two ways of writing the variance of a column agree when the column is real.

  For a column `h` of `n` real numbers with mean `μ = (∑ h) / n`,
  `(∑ h²) / n − μ² = (∑ (h − μ)²) / n`: expanding the square gives `∑ (h − μ)² = ∑ h² − 2 μ ∑ h + n μ²`, and `∑ h = n μ`.
  The identity needs the divisor to be exactly the number of terms, and it is an identity of real numbers: on the extended
  reals a column holding an infinity has no mean to subtract.  So the float the two programs divide by is first shown to be
  exactly one hundred thousand (`cRows_eq`), the number of rows; then every sum of the column is the coercion of a real sum,
  division by the row count is multiplication by the real `1 / 100000`, and the statement is the real identity (`var_eq`).
  With equal variances the two normalised arrays are equal (`norm_eq`).
-/
import proofs.«138549_j15195594293520_1_alg».proof.Proof.Spec
import proofs.«138549_j15195594293520_1_alg».proof.Proof.LibRealSums

noncomputable section

open scoped BigOperators

namespace Cert.BatchNorm

open Idealize.ShloMosaic Idealize.ShloMosaic.ValueIdx Cert.Lib.RealSums

/-- The single-precision word `0x47C35000` denotes exactly one hundred thousand: sign `0`, exponent field `143`, fraction field
    `4411392`, so the value is `(2^23 + 4411392) · 2^(143 − 127 − 23) = 12800000 / 128 = 100000`. -/
theorem cRows_eq : cRows = ((100000 : ℝ) : EReal) := by
  simp [cRows, Ideal.ofBits, Ideal.ieee, -EReal.coe_mul]; norm_num

/-- The variance identity over the reals: for `n` real numbers `h i`, where `n` is exactly the number of terms and is not zero,
    the mean of the squares minus the square of the mean is the mean of the squared deviations from the mean.
    (Division is written as the product with `1 / n`.) -/
theorem real_var_law {ι : Type*} [Fintype ι] (n : ℝ) (hn : n = (Fintype.card ι : ℝ)) (hn0 : n ≠ 0) (h : ι → ℝ) :
    (∑ i, h i * h i) * (1 / n) - ((∑ i, h i) * (1 / n)) * ((∑ i, h i) * (1 / n))
      = (∑ i, (h i - (∑ j, h j) * (1 / n)) * (h i - (∑ j, h j) * (1 / n))) * (1 / n) := by
  have e : ∀ μ : ℝ, ∑ i, (h i - μ) * (h i - μ) = (∑ i, h i * h i) - 2 * μ * (∑ i, h i) + n * (μ * μ) := by
    intro μ
    have : ∀ i, (h i - μ) * (h i - μ) = h i * h i - 2 * μ * h i + μ * μ := fun i => by ring
    simp only [this]
    rw [Finset.sum_add_distrib, Finset.sum_sub_distrib, ← Finset.mul_sum, Finset.sum_const, Finset.card_univ,
      nsmul_eq_mul, ← hn]
  rw [e]
  field_simp
  ring

/-- For a column of reals the variance from the moments is the variance as the mean of the squared deviations:
    every sum over the column is the coercion of a real sum, dividing by the row count `100000` is multiplying by the real
    `1 / 100000`, and what is left is the identity over the reals with `n = 100000`, the number of rows. -/
theorem var_eq (H : Mat) (q : Fin 128) (hH : ∀ r : Fin 100000, ∃ a : ℝ, H (ix2 r q) = (a : EReal)) :
    varMoments H q = varCentred H q := by
  choose h hh using hH
  have hn0 : (100000 : ℝ) ≠ 0 := by norm_num
  have eS : colSum H q = ((∑ r, h r : ℝ) : EReal) := by
    rw [colSum, coe_sum]; exact Finset.sum_congr rfl fun r _ => hh r
  have eQ : colSq H q = ((∑ r, h r * h r : ℝ) : EReal) := by
    rw [colSq, coe_sum]; exact Finset.sum_congr rfl fun r _ => by rw [hh r, EReal.coe_mul]
  have eM : mean H q = (((∑ r, h r) * (1 / 100000) : ℝ) : EReal) := by
    rw [mean, cRows_eq, Ideal.div_coe hn0, eS, EReal.coe_mul]
  have eC : (∑ r : Fin 100000, (H (ix2 r q) - mean H q) * (H (ix2 r q) - mean H q))
      = ((∑ r, (h r - (∑ j, h j) * (1 / 100000)) * (h r - (∑ j, h j) * (1 / 100000)) : ℝ) : EReal) := by
    rw [coe_sum]
    exact Finset.sum_congr rfl fun r _ => by rw [hh r, eM, ← EReal.coe_sub, ← EReal.coe_mul]
  rw [varMoments, varCentred, eC, eM, eQ, cRows_eq, Ideal.div_coe hn0, Ideal.div_coe hn0, ← EReal.coe_mul,
    ← EReal.coe_mul, ← EReal.coe_mul, ← EReal.coe_sub]
  exact congrArg _ (real_var_law (100000 : ℝ) (by simp) hn0 h)

/-- When every entry of the hidden array is a real, normalising with the variance from the moments and with the variance
    as the mean of squared deviations gives the same array: the two variances agree in every column. -/
theorem norm_eq (H : Mat) (g β : Vec128)
    (hH : ∀ (r : Fin 100000) (q : Fin 128), ∃ a : ℝ, H (ix2 r q) = (a : EReal)) :
    norm (varMoments H) H g β = norm (varCentred H) H g β :=
  norm_congr _ _ (fun q => var_eq H q fun r => hH r q) H g β

end Cert.BatchNorm

end
-- ==== Proof.HiddenReal.lean ====
/-
  The hidden array of a dense layer is real when its operands are.

  An entry of the layer is `∑ k, X[r, k] · W[k, q] + B[0, q]`.  A product of two reals is a real, a finite sum of reals is a
  real and so is a sum of two; hence, when every entry of `X`, of `W` and of the bias row is a real number (neither infinity),
  every entry of the layer is one.  On the extended reals this is what has to be known before the layer's output can be
  treated by identities of real arithmetic, which fail at the infinities.
-/
import proofs.«138549_j15195594293520_1_alg».proof.Proof.LibDenseLayer
import proofs.«138549_j15195594293520_1_alg».proof.Proof.LibRealSums

noncomputable section

open scoped BigOperators

namespace Cert.BatchNorm

open Idealize.ShloMosaic Idealize.ShloMosaic.ValueIdx Cert.Lib.RealSums

/-- If every entry of `X`, of `W` and of the bias row `B` is a real, so is every entry `∑ k, X[r, k] · W[k, q] + B[0, q]` of the
    layer: each product of two reals is a real, the finite sum of them is a real, and adding the real bias entry keeps it real. -/
theorem affine_real {n K N : Nat} (X : FVec Ideal ⟨2, ![n, K]⟩ .f32) (W : FVec Ideal ⟨2, ![K, N]⟩ .f32)
    (B : FVec Ideal ⟨2, ![1, N]⟩ .f32)
    (hX : ∀ i, ∃ a : ℝ, X i = (a : EReal)) (hW : ∀ i, ∃ a : ℝ, W i = (a : EReal))
    (hB : ∀ i, ∃ a : ℝ, B i = (a : EReal)) (r : Fin n) (q : Fin N) :
    ∃ a : ℝ, Cert.Lib.DenseLayer.affine X W B (ix2 r q) = (a : EReal) := by
  rw [Cert.Lib.DenseLayer.affine_apply]
  refine (fin'_add (fin'_sum _ _ fun k => ?_) ?_).exists_real
  · obtain ⟨a, ha⟩ := hX (ix2 r k)
    obtain ⟨b, hb⟩ := hW (ix2 k q)
    rw [ha, hb, ← EReal.coe_mul]
    exact fin'_coe _
  · obtain ⟨b, hb⟩ := hB (ix2 (0 : Fin 1) q)
    rw [hb]
    exact fin'_coe _

end Cert.BatchNorm

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.AggReal.lean ====
/-
  Every entry of the aggregated array is a real number.

  The aggregated array has 100000 rows and 128 columns.  Its entry (n, o) is zero plus the sum, over the 1600000 edges e
  whose destination row is n, of the product of a source entry x0[row(e), o] and the edge's value x3[e]; an edge with
  another destination contributes zero.  When every source entry and every edge value is a real, every term of this
  finite sum is a real (a product of two reals, or zero), so the sum is a real.  Which row an edge reads and which row it
  is added to are integer data and play no part: whatever they are, the term is a real.
-/
import proofs.«138549_j15195594293520_1_alg».proof.Proof.Gen.ReferenceIdeal.Read
import proofs.«138549_j15195594293520_1_alg».proof.Proof.LibScatterRows
import proofs.«138549_j15195594293520_1_alg».proof.Proof.LibSegments
import proofs.«138549_j15195594293520_1_alg».proof.Proof.LibRealSums

noncomputable section

open scoped BigOperators

namespace Cert.AggReal

open Cert.ReferenceIdeal Cert.ReferenceIdeal.Read Cert.Lib.RealSums
open Idealize.ShloMosaic Idealize.ShloMosaic.ValueIdx

/-- The product of two reals is a real. -/
theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

/-- An extended real that is the coercion of a real is neither infinity. -/
theorem fin'_of_exists {x : EReal} (h : ∃ a : ℝ, x = (a : EReal)) : Fin' x := by
  obtain ⟨a, rfl⟩ := h; exact fin'_coe a

/-- A gathered entry (e, o) is the source array's entry at some row and column o, hence a real when every source
    entry is. -/
theorem gathered_real (x0 : (⟨S100000x128, .f32⟩ : BufTy).Contents (Elt Ideal))
    (x1 : (⟨S1600000, .i32⟩ : BufTy).Contents (Elt Ideal))
    (h0 : ∀ i, ∃ a : ℝ, x0 i = (a : EReal)) (e : Fin 1600000) (o : Fin 128) :
    Fin' (val_main_v6 (F := Ideal) x0 x1 (ix2 e o)) := by
  unfold val_main_v6
  generalize val_main_v5 (F := Ideal) x1 = idx
  rw [Segments.gather_rows_apply_of_dims (by omega)
    gather_S100000x128_S1600000x1_S1600000x128_1_0_n_n_0_1_1128 rfl rfl rfl rfl rfl rfl rfl x0 idx e o]
  exact fin'_of_exists (h0 _)

/-- The edge value broadcast over the 128 columns, read at (e, o), is the edge's value x3[e], hence a real when every
    edge value is. -/
theorem edgeval_real (x3 : (⟨S1600000, .f32⟩ : BufTy).Contents (Elt Ideal))
    (h3 : ∀ i, ∃ a : ℝ, x3 i = (a : EReal)) (e : Fin 1600000) (o : Fin 128) :
    Fin' (val_main_v8 (F := Ideal) x3 (ix2 e o)) := by
  rw [val_main_v8_apply, val_main_v7_apply]
  exact fin'_of_exists (h3 _)

/-- The update (e, o) — a gathered source entry times the edge's value — is a real. -/
theorem update_real (x0 : (⟨S100000x128, .f32⟩ : BufTy).Contents (Elt Ideal))
    (x1 : (⟨S1600000, .i32⟩ : BufTy).Contents (Elt Ideal))
    (x3 : (⟨S1600000, .f32⟩ : BufTy).Contents (Elt Ideal))
    (h0 : ∀ i, ∃ a : ℝ, x0 i = (a : EReal)) (h3 : ∀ i, ∃ a : ℝ, x3 i = (a : EReal))
    (e : Fin 1600000) (o : Fin 128) :
    Fin' (val_main_v9 (F := Ideal) x0 x1 x3 (ix2 e o)) := by
  rw [val_main_v9_apply, Ideal.mulf_def]
  exact fin'_mul (gathered_real x0 x1 h0 e o) (edgeval_real x3 h3 e o)

/-- Entry (n, o) of the aggregated array — zero plus the sum over the edges with destination row n of the updates
    (e, o) — is a real: a finite sum of reals. -/
theorem agg_real_at (x0 : (⟨S100000x128, .f32⟩ : BufTy).Contents (Elt Ideal))
    (x1 x2 : (⟨S1600000, .i32⟩ : BufTy).Contents (Elt Ideal))
    (x3 : (⟨S1600000, .f32⟩ : BufTy).Contents (Elt Ideal))
    (h0 : ∀ i, ∃ a : ℝ, x0 i = (a : EReal)) (h3 : ∀ i, ∃ a : ℝ, x3 i = (a : EReal))
    (n : Fin 100000) (o : Fin 128) :
    Fin' (val_main_v12 (F := Ideal) x0 x1 x2 x3 (ix2 n o)) := by
  unfold val_main_v12
  have hu := update_real x0 x1 x3 h0 h3
  generalize val_main_v9 (F := Ideal) x0 x1 x3 = u at hu
  generalize val_main_v11 (F := Ideal) x2 = idx
  rw [ScatterRows.scatterAdd_rows2_apply_of_dims
    scatter_S100000x128_S1600000x1_S1600000x128_1_0_0_1 rfl rfl rfl rfl (val_main_v10 (F := Ideal)) idx u n o]
  refine fin'_add ?_ (fin'_sum _ _ fun e => ?_)
  · rw [val_main_v10_apply, val_main_cst_apply, Ideal.ofBits_def, Ideal.ofBits_zero_f32]
    exact fin'_zero
  · split_ifs
    · exact hu e o
    · exact fin'_zero

/-- EVERY ENTRY OF THE AGGREGATED ARRAY IS A REAL, when every source entry and every edge value is: the entry is zero
    plus a sum over the 1600000 edges of terms that are each a product of two reals or zero. -/
theorem agg_real (x0 : (⟨S100000x128, .f32⟩ : BufTy).Contents (Elt Ideal))
    (x1 x2 : (⟨S1600000, .i32⟩ : BufTy).Contents (Elt Ideal))
    (x3 : (⟨S1600000, .f32⟩ : BufTy).Contents (Elt Ideal))
    (h0 : ∀ i, ∃ a : ℝ, x0 i = (a : EReal)) (h3 : ∀ i, ∃ a : ℝ, x3 i = (a : EReal)) :
    ∀ i, ∃ a : ℝ, Cert.ReferenceIdeal.Read.val_main_v12 (F := Ideal) x0 x1 x2 x3 i = (a : EReal) := by
  intro i
  rw [eq_ix2 i]
  exact (agg_real_at x0 x1 x2 x3 h0 h3 (i 0) (i 1)).exists_real

end Cert.AggReal

end
-- ==== Proof.Finite.lean ====
/-
  From "every float input is finite" to "every entry of every float input is a real".

  The precondition is the conjunction of six tests, one per float input: every entry x of the input has |x| < +∞.  On
  the extended reals |x| is max x (−x), and +∞ is the value of the word 0x7F800000.  An extended real whose absolute
  value is below +∞ is neither infinity, hence a real.  A test over a whole array holds exactly when it holds at every
  index, and a conjunction holds exactly when each of its parts does.
-/
import proofs.«138549_j15195594293520_1_alg».proof.Pre_finite_inputs
import Idealize.ShloMosaic.Lib.ReduceAll
import Idealize.ShloMosaic.Lib.ValueIdx
import Idealize.ShloMosaic.PureOps.Ideal

noncomputable section

namespace Cert.Finite

open Cert.Pre_finite_inputs Idealize.ShloMosaic

/-- The single-precision word 0x7F800000 is +∞. -/
theorem ofBits_inf : Ideal.ofBits .f32 0x7F800000#32 = (⊤ : EReal) := by
  simp [Ideal.ofBits, Ideal.ieee]

/-- An extended real whose absolute value max x (−x) is below +∞ is a real: the absolute value of either infinity
    is +∞. -/
theorem real_of_abs_lt_inf (x : EReal)
    (h : Ideal.cmp .olt (max x (-x)) (Ideal.ofBits .f32 0x7F800000#32) = 1#1) : ∃ a : ℝ, x = (a : EReal) := by
  rw [ofBits_inf] at h
  have h' : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => exact absurd h' (by simp)
  | coe a => exact ⟨a, rfl⟩
  | top => exact absurd h' (by simp)

/-- The scalar shape has one index. -/
instance : Subsingleton S_.Idx := ⟨fun a b => funext fun d => d.elim0⟩

/-- ONE TEST: when "every entry of x has |x| < +∞", reduced over all axes by "and", is true, every entry of x is a
    real. -/
theorem reals_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] hb (constant S_ .f32 0x7F800000#32))) init hr hu j = 1#1) :
    ∀ i, ∃ a : ℝ, x i = (a : EReal) := by
  intro i
  have hi := Host.reduce_andi_all _ init hr hu j e i
  exact real_of_abs_lt_inf (x i) hi

/-- THE PRECONDITION DECODED: when the six finiteness tests all hold, every entry of each of the six float inputs is a
    real. -/
theorem reals_of_pre [Facts] (x0 : FVec Ideal S100000x128 .f32) (x1 x2 : IVec S1600000 32)
    (x3 : FVec Ideal S1600000 .f32) (x4 : FVec Ideal S128x128 .f32) (x5 x6 x7 : FVec Ideal S128 .f32)
    (h : fn (F := Ideal) x0 x1 x2 x3 x4 x5 x6 x7 = fun _ => 1#1) :
    (∀ i, ∃ a : ℝ, x0 i = (a : EReal)) ∧ (∀ i, ∃ a : ℝ, x3 i = (a : EReal)) ∧ (∀ i, ∃ a : ℝ, x4 i = (a : EReal)) ∧
      (∀ i, ∃ a : ℝ, x5 i = (a : EReal)) ∧ (∀ i, ∃ a : ℝ, x6 i = (a : EReal)) ∧ (∀ i, ∃ a : ℝ, x7 i = (a : EReal)) := by
  have e := congrFun h ValueIdx.ix0
  dsimp only [fn, fn_part1] at e
  simp only [andi, IntOp.andi_eq_one] at e
  obtain ⟨⟨⟨⟨⟨e0, e3⟩, e4⟩, e5⟩, e6⟩, e7⟩ := e
  exact ⟨reals_of_all x0 _ _ _ _ _ e0, reals_of_all x3 _ _ _ _ _ e3, reals_of_all x4 _ _ _ _ _ e4,
    reals_of_all x5 _ _ _ _ _ e5, reals_of_all x6 _ _ _ _ _ e6, reals_of_all x7 _ _ _ _ _ e7⟩

end Cert.Finite

end
-- ==== Proof.RefNorm.lean ====
/-
  The reference's result is the normalised array with the centred variance.

  After the aggregation the reference computes the hidden array `H = A · W + b` (the product, plus the bias vector broadcast over
  the rows), then for every column `q`: the sum of the column and its quotient by the row count, the mean `μ q`; the
  deviations `H − μ`, their squares, the sum of the squares in the column and its quotient by the row count — the variance as the
  mean of the squared deviations; and last `((H − μ) · rsqrt (var + ε)) · γ + β`, entry by entry.  Read at the entry `(r, q)` every
  stage is the corresponding piece of `Cert.BatchNorm.normAt (varCentred H) H γ β r q`: a broadcast of a per-column vector to a
  row and then over the rows reads the vector at `q`, a float sum along the rows started from the float zero is the column's sum,
  and the elementwise operations are the extended reals' own.  The aggregated array `A` is never opened.
-/
import proofs.«138549_j15195594293520_1_alg».proof.Proof.Gen.ReferenceIdeal.Read
import proofs.«138549_j15195594293520_1_alg».proof.Proof.Spec
import proofs.«138549_j15195594293520_1_alg».proof.Proof.LibDenseLayer

noncomputable section

open scoped BigOperators

namespace Cert.BatchNorm.Ref

open Cert.ReferenceIdeal Cert.ReferenceIdeal.Read Cert.ReferenceIdeal.Gen Idealize.ShloMosaic Idealize.ShloMosaic.ValueIdx

variable (x0 : (⟨S100000x128, .f32⟩ : BufTy).Contents (Elt Ideal)) (x1 x2 : (⟨S1600000, .i32⟩ : BufTy).Contents (Elt Ideal))
  (x3 : (⟨S1600000, .f32⟩ : BufTy).Contents (Elt Ideal)) (x4 : (⟨S128x128, .f32⟩ : BufTy).Contents (Elt Ideal))
  (x5 x6 x7 : (⟨S128, .f32⟩ : BufTy).Contents (Elt Ideal)) (hsc : (⟨1, ![128]⟩ : Shape).ShapeCasts ⟨2, ![1, 128]⟩)

/-- The hidden array `H = A · W + b`: the dense layer of the aggregated array `A` (kept as the one opaque term it is), the weights
    and the bias vector read as a row. -/
abbrev hidden : Mat :=
  Cert.Lib.DenseLayer.affine (val_main_v12 (F := Ideal) x0 x1 x2 x3) x4 (shapeCast ⟨2, ![1, 128]⟩ x5 hsc)

/-! ## Indices: a broadcast over the rows reads its column, a sum along the rows runs over the column -/

/-- The row sum's index `(k, q)`. -/
theorem idx17 (q : Fin 128) (k : Fin 100000) : idx_main_v17 (ix1 q) k = ix2 k q := by
  funext a; match a with | ⟨0, _⟩ => rfl | ⟨1, _⟩ => rfl
theorem idx24 (q : Fin 128) (k : Fin 100000) : idx_main_v24 (ix1 q) k = ix2 k q := by
  funext a; match a with | ⟨0, _⟩ => rfl | ⟨1, _⟩ => rfl
/-- A vector broadcast to a row and then over the rows is read, at `(r, q)`, at `q`. -/
theorem idx20_21 (r : Fin 100000) (q : Fin 128) : idx_main_v20 (idx_main_v21 (ix2 r q)) = ix1 q := by
  funext a; match a with | ⟨0, _⟩ => rfl
theorem idx27_28 (r : Fin 100000) (q : Fin 128) : idx_main_v27 (idx_main_v28 (ix2 r q)) = ix1 q := by
  funext a; match a with | ⟨0, _⟩ => rfl
theorem idx33_34 (r : Fin 100000) (q : Fin 128) : idx_main_v33 (idx_main_v34 (ix2 r q)) = ix1 q := by
  funext a; match a with | ⟨0, _⟩ => rfl
theorem idx36_37 (r : Fin 100000) (q : Fin 128) : idx_main_v36 (idx_main_v37 (ix2 r q)) = ix1 q := by
  funext a; match a with | ⟨0, _⟩ => rfl
theorem idx39_40 (r : Fin 100000) (q : Fin 128) : idx_main_v39 (idx_main_v40 (ix2 r q)) = ix1 q := by
  funext a; match a with | ⟨0, _⟩ => rfl

/-! ## The stages -/

/-- The product with the weights plus the bias vector broadcast to a row and over the rows is the dense layer, with `A` a
    variable. -/
theorem layer_eq (A : FVec Ideal ⟨2, ![100000, 128]⟩ .f32) (w : FVec Ideal ⟨2, ![128, 128]⟩ .f32)
    (b : FVec Ideal ⟨1, ![128]⟩ .f32) (hsc : (⟨1, ![128]⟩ : Shape).ShapeCasts ⟨2, ![1, 128]⟩) :
    addf (Host.dotGeneral dot_S100000x128_S128x128_S100000x128_1_0_0_1_n_n none A w)
      (broadcastInDim S100000x128 ![0, 1] bcast_S1x128_S100000x128_0_1 (broadcastInDim S1x128 ![1] bcast_S128_S1x128_1 b))
      = Cert.Lib.DenseLayer.affine A w (shapeCast ⟨2, ![1, 128]⟩ b hsc) :=
  Cert.Lib.DenseLayer.host_affine_eq (n := 100000) (K := 128) (N := 128) dot_S100000x128_S128x128_S100000x128_1_0_0_1_n_n
    (rfl : dot_S100000x128_S128x128_S100000x128_1_0_0_1_n_n = DotDims.plain 100000 128 128)
    bcast_S128_S1x128_1 bcast_S1x128_S100000x128_0_1 hsc A w b

/-- The reference's hidden array is `H`. -/
theorem v16_eq : val_main_v16 (F := Ideal) x0 x1 x2 x3 x4 x5 = hidden x0 x1 x2 x3 x4 x5 hsc := by
  unfold val_main_v16 val_main_v13 val_main_v15 val_main_v14 hidden
  generalize val_main_v12 (F := Ideal) x0 x1 x2 x3 = A
  exact layer_eq A x4 x5 hsc

/-- The column's sum started from the float zero, divided by the float `1.0e5`, is the mean of column `q` of `H`. -/
theorem mean_eq (q : Fin 128) :
    val_main_v19 (F := Ideal) x0 x1 x2 x3 x4 x5 (ix1 q) = mean (hidden x0 x1 x2 x3 x4 x5 hsc) q := by
  rw [val_main_v19_apply, val_main_v17_apply, val_main_v18_apply, val_main_cst_2_apply, val_main_cst_1_apply,
    v16_eq x0 x1 x2 x3 x4 x5 hsc]
  generalize hidden x0 x1 x2 x3 x4 x5 hsc = H
  rw [Ideal.hostDivf_def, Ideal.ofBits_def, Ideal.ofBits_def, Ideal.ofBits_zero_f32, zero_add]
  exact congrArg (fun s => Ideal.div s cRows) (Finset.sum_congr rfl fun k _ => congrArg H (idx17 q k))

/-- The deviation at `(r, q)`: the entry of `H` minus the mean of its column (the mean broadcast to a row and over the rows). -/
theorem dev_eq (r : Fin 100000) (q : Fin 128) :
    val_main_v22 (F := Ideal) x0 x1 x2 x3 x4 x5 (ix2 r q)
      = hidden x0 x1 x2 x3 x4 x5 hsc (ix2 r q) - mean (hidden x0 x1 x2 x3 x4 x5 hsc) q := by
  rw [val_main_v22_apply, val_main_v21_apply, val_main_v20_apply, idx20_21 r q, mean_eq x0 x1 x2 x3 x4 x5 hsc q,
    v16_eq x0 x1 x2 x3 x4 x5 hsc, Ideal.subf_def]

/-- The sum over column `q` of the squared deviations, divided by the float `1.0e5`, is the centred variance of column `q`. -/
theorem var_eq' (q : Fin 128) :
    val_main_v26 (F := Ideal) x0 x1 x2 x3 x4 x5 (ix1 q) = varCentred (hidden x0 x1 x2 x3 x4 x5 hsc) q := by
  rw [val_main_v26_apply, val_main_v24_apply, val_main_v25_apply, val_main_cst_4_apply, val_main_cst_3_apply,
    Ideal.hostDivf_def, Ideal.ofBits_def, Ideal.ofBits_def, Ideal.ofBits_zero_f32, zero_add]
  refine congrArg (fun s => Ideal.div s cRows) (Finset.sum_congr rfl fun k _ => ?_)
  rw [idx24 q k, val_main_v23_apply, dev_eq x0 x1 x2 x3 x4 x5 hsc k q, Ideal.mulf_def]

/-- The entry `(r, q)` of the reference's result: `((H − μ) · rsqrt (var + ε)) · γ + β` with the centred variance. -/
theorem entry_eq (r : Fin 100000) (q : Fin 128) :
    val_main_v41 (F := Ideal) x0 x1 x2 x3 x4 x5 x6 x7 (ix2 r q)
      = normAt (varCentred (hidden x0 x1 x2 x3 x4 x5 hsc)) (hidden x0 x1 x2 x3 x4 x5 hsc) x6 x7 r q := by
  rw [val_main_v41_apply, val_main_v38_apply, val_main_v35_apply, val_main_v29_apply,
    val_main_v28_apply, val_main_v27_apply, idx27_28 r q,
    val_main_v34_apply, val_main_v33_apply, idx33_34 r q, val_main_v32_apply, val_main_v31_apply, val_main_v30_apply,
    val_main_cst_5_apply,
    val_main_v37_apply, val_main_v36_apply, idx36_37 r q,
    val_main_v40_apply, val_main_v39_apply, idx39_40 r q,
    mean_eq x0 x1 x2 x3 x4 x5 hsc q, var_eq' x0 x1 x2 x3 x4 x5 hsc q, v16_eq x0 x1 x2 x3 x4 x5 hsc]
  generalize hidden x0 x1 x2 x3 x4 x5 hsc = H
  rw [Ideal.addf_def, Ideal.mulf_def, Ideal.mulf_def, Ideal.subf_def, Ideal.hostUnary_rsqrt_def, Ideal.addf_def, Ideal.ofBits_def]
  rfl

/-- THE REFERENCE'S RESULT is the array normalised with the variance as the mean of the squared deviations, of the hidden array
    `H = A · W + b`, with scale `γ = x6` and shift `β = x7`. -/
theorem ref_eq :
    val_main_v41 (F := Ideal) x0 x1 x2 x3 x4 x5 x6 x7
      = Cert.BatchNorm.norm (varCentred (hidden x0 x1 x2 x3 x4 x5 hsc)) (hidden x0 x1 x2 x3 x4 x5 hsc) x6 x7 := by
  funext i
  obtain ⟨r, q, rfl⟩ : ∃ (r : Fin 100000) (q : Fin 128), i = ix2 r q := ⟨i 0, i 1, eq_ix2 i⟩
  rw [norm_apply]
  exact entry_eq x0 x1 x2 x3 x4 x5 x6 x7 hsc r q

end Cert.BatchNorm.Ref

end
-- ==== Proof.Bridge.lean ====
/-
  The kernel's result array is the reference's.

  The kernel's result array ends holding `normed` of the contents the second region is entered with.  Those contents are:
  the aggregated array, the weights and the bias row as the first region found them (no operation in between writes
  them), which are the reference's aggregated array, the weight argument and the bias argument as a row — so the hidden
  array is the reference's `H`; the row of means, `S₁ / 100000` of the first region's column sums `S₁ = colSum H`; the
  row of reciprocal deviations, `rsqrt ((S₂ / 100000 − mean²) + ε)` of its column sums of squares `S₂ = colSq H`; the scale
  and shift arguments as rows.  Hence the kernel's array is `norm (varMoments H) H γ β`.  Every entry of `H` is a real,
  because every float argument is finite and the aggregated array is a finite sum of products of reals; so the moments'
  variance is the centred one, and `norm (varCentred H) H γ β` is what the reference computes.
-/
import proofs.«138549_j15195594293520_1_alg».proof.Proof.KernelRun
import proofs.«138549_j15195594293520_1_alg».proof.Proof.NormValue
import proofs.«138549_j15195594293520_1_alg».proof.Proof.StatsArray
import proofs.«138549_j15195594293520_1_alg».proof.Proof.HostBefore
import proofs.«138549_j15195594293520_1_alg».proof.Proof.HostBetween
import proofs.«138549_j15195594293520_1_alg».proof.Proof.KernelRows
import proofs.«138549_j15195594293520_1_alg».proof.Proof.VarLaw
import proofs.«138549_j15195594293520_1_alg».proof.Proof.HiddenReal
import proofs.«138549_j15195594293520_1_alg».proof.Proof.AggReal
import proofs.«138549_j15195594293520_1_alg».proof.Proof.Finite
import proofs.«138549_j15195594293520_1_alg».proof.Proof.RefNorm

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen Cert.BatchNorm

variable (m : (ℓ : Loc nD τ sig) → Buf (Elt Ideal) ℓ) (ρ : Dev nD → PrngReg) (c : Dev nD)

/-- The hidden array both programs normalise: the dense layer of the aggregated array of the launch arguments. -/
abbrev H : Mat :=
  Cert.BatchNorm.Ref.hidden (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) shapeCasts_S128_S1x128

/-- Equal operands give equal dense layers. -/
theorem affine_congr {n K N : Nat} {X X' : FVec Ideal ⟨2, ![n, K]⟩ .f32} {W W' : FVec Ideal ⟨2, ![K, N]⟩ .f32}
    {B B' : FVec Ideal ⟨2, ![1, N]⟩ .f32} (hX : X = X') (hW : W = W') (hB : B = B') :
    Cert.Lib.DenseLayer.affine X W B = Cert.Lib.DenseLayer.affine X' W' B' := by
  subst hX hW hB; rfl

/-- Equal hidden entries, scales and shifts give equal normalised entries. -/
theorem entry_congr {h h' mu rs g g' b b' : EReal} (eh : h = h') (eg : g = g') (eb : b = b') :
    ((h - mu) * rs) * g + b = ((h' - mu) * rs) * g' + b' := by
  subst eh eg eb; rfl

/-- The hidden array of the first region's entry contents is `H`. -/
theorem hid_first : StatsValue.hid (V1 m ρ) c = H m c :=
  affine_congr (HostBefore.agg_entry m ρ c) (HostBefore.weights_entry m ρ c) (HostBefore.bias_entry m ρ c)

/-- The hidden array of the second region's entry contents is `H` too: nothing between the regions writes its operands. -/
theorem hid_second : StatsValue.hid (V3 m ρ) c = H m c :=
  affine_congr ((HostBetween.kept_agg m ρ c).trans (HostBefore.agg_entry m ρ c))
    ((HostBetween.kept_weights m ρ c).trans (HostBefore.weights_entry m ρ c))
    ((HostBetween.kept_bias m ρ c).trans (HostBefore.bias_entry m ρ c))

/-- The kernel's result array is the normalised array with the variance from the moments. -/
theorem normed_eq : NormValue.normed (V3 m ρ) c
    = norm (varMoments (H m c)) (H m c) (m ((c : Thread nD τ).loc main_arg6)) (m ((c : Thread nD τ).loc main_arg7)) := by
  funext i
  obtain ⟨a, q, rfl⟩ : ∃ (a : Fin 100000) (q : Fin 128), i = ix2 a q := ⟨i 0, i 1, eq_ix2 i⟩
  refine (NormValue.normed_apply (V3 m ρ) c a q).trans ?_
  refine (entry_congr (mu := V3 m ρ c main_v18 (ix2 (0 : Fin 1) q)) (rs := V3 m ρ c main_v25 (ix2 (0 : Fin 1) q))
    (congrFun (hid_second m ρ c) (ix2 a q))
    (congrFun ((HostBetween.kept_gamma m ρ c).trans (HostBefore.gamma_entry m ρ c)) (ix2 (0 : Fin 1) q))
    (congrFun ((HostBetween.kept_beta m ρ c).trans (HostBefore.beta_entry m ρ c)) (ix2 (0 : Fin 1) q))).trans ?_
  rw [norm_apply]
  exact Cert.BatchNorm.Kernel.rows_to_norm (H m c) ((dat0 (V1 m ρ) c).arrAt 3 cfg0.N) ((dat0 (V1 m ρ) c).arrAt 4 cfg0.N)
    (V3 m ρ c main_v18) (V3 m ρ c main_v25) (m ((c : Thread nD τ).loc main_arg6)) (m ((c : Thread nD τ).loc main_arg7))
    (fun q => (StatsArray.sums_entry (V1 m ρ) c q).trans (congrArg (colSum · q) (hid_first m ρ c)))
    (fun q => (StatsArray.squares_entry (V1 m ρ) c q).trans (congrArg (colSq · q) (hid_first m ρ c)))
    (HostBetween.mean_entry m ρ c) (HostBetween.rstd_entry m ρ c) a q

/-- Under the precondition every entry of the hidden array is a real. -/
theorem hidden_real [Cert.Pre_finite_inputs.Facts]
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1)
    (r : Fin 100000) (q : Fin 128) : ∃ a : ℝ, H m c (ix2 r q) = (a : EReal) := by
  obtain ⟨h0, h3, h4, h5, -, -⟩ := Cert.Finite.reals_of_pre _ _ _ _ _ _ _ _ hpre
  exact affine_real _ _ _ (Cert.AggReal.agg_real _ _ _ _ h0 h3) h4 (fun i => by unfold shapeCast; exact h5 _) r q

/-- The kernel's result buffer ends at the reference's result term of the same arguments. -/
theorem result_eq [Cert.Pre_finite_inputs.Facts]
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    W4 m ρ c (Proc.devRef .tc main_v26)
      = Cert.ReferenceIdeal.Read.val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (Run.result_eq m ρ c).trans ((NormValue.final (V3 m ρ) c).trans ((normed_eq m ρ c).trans ?_))
  rw [norm_eq _ _ _ (hidden_real m c hpre)]
  exact (Cert.BatchNorm.Ref.ref_eq _ _ _ _ _ _ _ _ shapeCasts_S128_S1x128).symm

end Cert.KernelIdeal.Bridge

end
-- ==== Proof.Assemble.lean ====
/-
  The algebraic claim, assembled.

  From memories that agree on the arguments both programs run to the end with their argument arrays unchanged.  The
  kernel's result array ends at the contents of the last boundary of its program read at the result buffer; the
  reference's at its composed term of the arguments.  Under the precondition these are the same array (`Bridge.result_eq`):
  the hidden rows normalised column by column, the variance taken from the moments in the kernel and from the squared
  deviations in the reference, equal because every hidden entry is a real.
-/
import proofs.«138549_j15195594293520_1_alg».proof.Defs
import proofs.«138549_j15195594293520_1_alg».proof.Proof.Gen.KernelIdeal
import proofs.«138549_j15195594293520_1_alg».proof.Proof.Gen.ReferenceIdeal
import proofs.«138549_j15195594293520_1_alg».proof.Proof.Gen.ReferenceIdeal.Run
import proofs.«138549_j15195594293520_1_alg».proof.Proof.Gen.ReferenceIdeal.Read
import proofs.«138549_j15195594293520_1_alg».proof.Proof.Gen.Pre_finite_inputs
import proofs.«138549_j15195594293520_1_alg».proof.Proof.Bridge

noncomputable section

namespace Cert.Proof.Assemble

open Idealize.ShloMosaic Idealize.ShloMosaic.TcCoe Idealize.SL.Sem

theorem algebraic : Cert.algebraic_KernelIdeal_ReferenceIdeal := by
  intro m ρ m' ρ' hpre hagree
  refine ⟨fun c => Cert.KernelIdeal.Gen.W4 m ρ c (Proc.devRef .tc Cert.KernelIdeal.main_v26),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.Bridge.result_eq m ρ c (hpre c)).symm

end Cert.Proof.Assemble

end
-- ==== Proof.lean ====
/-
  The certificate of a graph-convolution layer followed by a batch normalisation.

  Both programs aggregate the rows of `x` over 1.6 million weighted edges into a 100000 × 128 array (the same host
  operations on both sides), apply one dense layer `H = agg · W + b`, and normalise every column of `H` over the 100000
  rows: `((H − mean) · rsqrt (var + ε)) · γ + β`.  The kernel does this in two passes over row blocks of 5000 — the first
  accumulates each column's sum and sum of squares, the second recomputes the block's hidden rows and normalises them —
  and takes the variance from the moments, `(∑ H²) / n − mean²`; the reference takes it as `(∑ (H − mean)²) / n`.  On the
  extended reals these agree because, under the precondition that every float input is finite, every entry of `H` is a
  real, and `n` is exactly the number of rows.

  The three frames are the generated ones (the reference's is its generated run with the result dropped); the
  idealization rewrote nothing, so `preserves` is `True`; the algebraic claim is `Proof/Assemble.lean`.
-/
import proofs.«138549_j15195594293520_1_alg».proof.Defs
import proofs.«138549_j15195594293520_1_alg».proof.Proof.Gen.Kernel
import proofs.«138549_j15195594293520_1_alg».proof.Proof.Gen.Kernel.Frame
import proofs.«138549_j15195594293520_1_alg».proof.Proof.Gen.KernelIdeal
import proofs.«138549_j15195594293520_1_alg».proof.Proof.Gen.KernelIdeal.Frame
import proofs.«138549_j15195594293520_1_alg».proof.Proof.Gen.ReferenceIdeal
import proofs.«138549_j15195594293520_1_alg».proof.Proof.Gen.ReferenceIdeal.Run
import proofs.«138549_j15195594293520_1_alg».proof.Proof.Gen.ReferenceIdeal.Read
import proofs.«138549_j15195594293520_1_alg».proof.Proof.Gen.Pre_finite_inputs
import proofs.«138549_j15195594293520_1_alg».proof.Proof.Assemble
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Assemble.algebraic⟩

end Cert.Proof

end
